-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x768 : Shape := ⟨3, ![8, 2048, 768]⟩
abbrev S768x64 : Shape := ⟨2, ![768, 64]⟩
abbrev S64 : Shape := ⟨1, ![64]⟩
abbrev S_ : Shape := ⟨0, ![]⟩

class Facts : Prop where
  bcast_S_S8x2048x768 : S_.BroadcastsInDim S8x2048x768 (![] : Fin 0 → Fin S8x2048x768.rank)
  reducesTo_S8x2048x768_S_d0_1_2 : S8x2048x768.ReducesTo [0, 1, 2] S_
  h_S_ : 0 < S_.numel
  bcast_S_S768x64 : S_.BroadcastsInDim S768x64 (![] : Fin 0 → Fin S768x64.rank)
  reducesTo_S768x64_S_d0_1 : S768x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S768x64 .f32) (main_arg8 : FVec F S64 .f32) (main_v33 : IVec S_ 1) : IVec S_ 1 :=
  let main_v34 : FVec F S768x64 .f32 := Host.absf main_arg7
  let main_cst_12 : FVec F S_ .f32 := constant S_ .f32 0x7F800000#32
  let main_v35 : FVec F S768x64 .f32 := broadcastInDim S768x64 ![] bcast_S_S768x64 main_cst_12
  let main_v36 : IVec S768x64 1 := cmpf .olt main_v34 main_v35
  let main_c_13 : IVec S_ 1 := constantI S_ 1 1#1
  let main_v37 : IVec S_ 1 := (fun x v => Host.reduce IntOp.andi x v reducesTo_S768x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S64 .f32) (main_arg5 : FVec F S768x64 .f32) (main_arg6 : FVec F S64 .f32) (main_arg7 : FVec F S768x64 .f32) (main_arg8 : FVec F S64 .f32) (main_v13 : IVec S_ 1) (main_v16 : IVec S768x64 1) : IVec S_ 1 :=
  let main_c_5 : IVec S_ 1 := constantI S_ 1 1#1
  let main_v17 : IVec S_ 1 := (fun x v => Host.reduce IntOp.andi x v reducesTo_S768x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S768x64 .f32 := Host.absf main_arg5
  let main_cst_8 : FVec F S_ .f32 := constant S_ .f32 0x7F800000#32
  let main_v25 : FVec F S768x64 .f32 := broadcastInDim S768x64 ![] bcast_S_S768x64 main_cst_8
  let main_v26 : IVec S768x64 1 := cmpf .olt main_v24 main_v25
  let main_c_9 : IVec S_ 1 := constantI S_ 1 1#1
  let main_v27 : IVec S_ 1 := (fun x v => Host.reduce IntOp.andi x v reducesTo_S768x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S8x2048x768 .f32) (main_arg1 : FVec F S8x2048x768 .f32) (main_arg2 : FVec F S8x2048x768 .f32) (main_arg3 : FVec F S768x64 .f32) (main_arg4 : FVec F S64 .f32) (main_arg5 : FVec F S768x64 .f32) (main_arg6 : FVec F S64 .f32) (main_arg7 : FVec F S768x64 .f32) (main_arg8 : FVec F S64 .f32) : IVec S_ 1 :=
  let main_v0 : FVec F S8x2048x768 .f32 := Host.absf main_arg0
  let main_cst : FVec F S_ .f32 := constant S_ .f32 0x7F800000#32
  let main_v1 : FVec F S8x2048x768 .f32 := broadcastInDim S8x2048x768 ![] bcast_S_S8x2048x768 main_cst
  let main_v2 : IVec S8x2048x768 1 := cmpf .olt main_v0 main_v1
  let main_c : IVec S_ 1 := constantI S_ 1 1#1
  let main_v3 : IVec S_ 1 := (fun x v => Host.reduce IntOp.andi x v reducesTo_S8x2048x768_S_d0_1_2 h_S_) main_v2 main_c
  let main_v4 : FVec F S8x2048x768 .f32 := Host.absf main_arg1
  let main_cst_0 : FVec F S_ .f32 := constant S_ .f32 0x7F800000#32
  let main_v5 : FVec F S8x2048x768 .f32 := broadcastInDim S8x2048x768 ![] bcast_S_S8x2048x768 main_cst_0
  let main_v6 : IVec S8x2048x768 1 := cmpf .olt main_v4 main_v5
  let main_c_1 : IVec S_ 1 := constantI S_ 1 1#1
  let main_v7 : IVec S_ 1 := (fun x v => Host.reduce IntOp.andi x v reducesTo_S8x2048x768_S_d0_1_2 h_S_) main_v6 main_c_1
  let main_v8 : IVec S_ 1 := andi main_v3 main_v7
  let main_v9 : FVec F S8x2048x768 .f32 := Host.absf main_arg2
  let main_cst_2 : FVec F S_ .f32 := constant S_ .f32 0x7F800000#32
  let main_v10 : FVec F S8x2048x768 .f32 := broadcastInDim S8x2048x768 ![] bcast_S_S8x2048x768 main_cst_2
  let main_v11 : IVec S8x2048x768 1 := cmpf .olt main_v9 main_v10
  let main_c_3 : IVec S_ 1 := constantI S_ 1 1#1
  let main_v12 : IVec S_ 1 := (fun x v => Host.reduce IntOp.andi x v reducesTo_S8x2048x768_S_d0_1_2 h_S_) main_v11 main_c_3
  let main_v13 : IVec S_ 1 := andi main_v8 main_v12
  let main_v14 : FVec F S768x64 .f32 := Host.absf main_arg3
  let main_cst_4 : FVec F S_ .f32 := constant S_ .f32 0x7F800000#32
  let main_v15 : FVec F S768x64 .f32 := broadcastInDim S768x64 ![] bcast_S_S768x64 main_cst_4
  let main_v16 : IVec S768x64 1 := cmpf .olt main_v14 main_v15
  fn_part1 (F := F) main_arg4 main_arg5 main_arg6 main_arg7 main_arg8 main_v13 main_v16
-- ==== Kernel.lean ====
abbrev S8x2048x768 : Shape := ⟨3, ![8, 2048, 768]⟩
abbrev S768x64 : Shape := ⟨2, ![768, 64]⟩
abbrev S64 : Shape := ⟨1, ![64]⟩
abbrev S8x2048x64 : Shape := ⟨3, ![8, 2048, 64]⟩
abbrev S1x512x768 : Shape := ⟨3, ![1, 512, 768]⟩
abbrev S1x2048x768 : Shape := ⟨3, ![1, 2048, 768]⟩
abbrev S1x512x64 : Shape := ⟨3, ![1, 512, 64]⟩
abbrev S2048x64 : Shape := ⟨2, ![2048, 64]⟩
abbrev S2048x768 : Shape := ⟨2, ![2048, 768]⟩
abbrev S1x64 : Shape := ⟨2, ![1, 64]⟩
abbrev S2048 : Shape := ⟨1, ![2048]⟩
abbrev S2048x1 : Shape := ⟨2, ![2048, 1]⟩
abbrev S512x768 : Shape := ⟨2, ![512, 768]⟩
abbrev S512x64 : Shape := ⟨2, ![512, 64]⟩
abbrev S512 : Shape := ⟨1, ![512]⟩
abbrev S512x1 : Shape := ⟨2, ![512, 1]⟩
abbrev S512x2048 : Shape := ⟨2, ![512, 2048]⟩

abbrev nBuf : Space → Nat
  | .hbm => 10
  | .vmem => 16
  | .smem => 0
  | _ => 0

abbrev bufTy : (tb : Table) → Fin (tcTables nBuf tb) → BufTy
  | .hbm, ⟨0, _⟩ => ⟨S8x2048x768, .f32⟩
  | .hbm, ⟨1, _⟩ => ⟨S8x2048x768, .f32⟩
  | .hbm, ⟨2, _⟩ => ⟨S8x2048x768, .f32⟩
  | .hbm, ⟨3, _⟩ => ⟨S768x64, .f32⟩
  | .hbm, ⟨4, _⟩ => ⟨S64, .f32⟩
  | .hbm, ⟨5, _⟩ => ⟨S768x64, .f32⟩
  | .hbm, ⟨6, _⟩ => ⟨S64, .f32⟩
  | .hbm, ⟨7, _⟩ => ⟨S768x64, .f32⟩
  | .hbm, ⟨8, _⟩ => ⟨S64, .f32⟩
  | .hbm, ⟨9, _⟩ => ⟨S8x2048x64, .f32⟩
  | .local _ .vmem, ⟨0, _⟩ => ⟨S1x512x768, .f32⟩
  | .local _ .vmem, ⟨1, _⟩ => ⟨S1x512x768, .f32⟩
  | .local _ .vmem, ⟨2, _⟩ => ⟨S1x2048x768, .f32⟩
  | .local _ .vmem, ⟨3, _⟩ => ⟨S1x2048x768, .f32⟩
  | .local _ .vmem, ⟨4, _⟩ => ⟨S1x2048x768, .f32⟩
  | .local _ .vmem, ⟨5, _⟩ => ⟨S1x2048x768, .f32⟩
  | .local _ .vmem, ⟨6, _⟩ => ⟨S768x64, .f32⟩
  | .local _ .vmem, ⟨7, _⟩ => ⟨S64, .f32⟩
  | .local _ .vmem, ⟨8, _⟩ => ⟨S768x64, .f32⟩
  | .local _ .vmem, ⟨9, _⟩ => ⟨S64, .f32⟩
  | .local _ .vmem, ⟨10, _⟩ => ⟨S768x64, .f32⟩
  | .local _ .vmem, ⟨11, _⟩ => ⟨S64, .f32⟩
  | .local _ .vmem, ⟨12, _⟩ => ⟨S1x512x64, .f32⟩
  | .local _ .vmem, ⟨13, _⟩ => ⟨S1x512x64, .f32⟩
  | .local _ .vmem, ⟨14, _⟩ => ⟨S2048x64, .bf16⟩
  | .local _ .vmem, ⟨15, _⟩ => ⟨S2048x64, .bf16⟩
  | _, _ => ⟨S8x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S768x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S768x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S768x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  inb_S1x2048x768_S1x2048x768_0_0_0 : ∀ a, (![0, 0, 0] : Fin 3 → Nat) a + S1x2048x768.size a ≤ S1x2048x768.size a
  h_S1x2048x768 : 0 < S1x2048x768.numel
  shapeCasts_S1x2048x768_S2048x768 : S1x2048x768.ShapeCasts S2048x768
  inb_S768x64_S768x64_0_0 : ∀ a, (![0, 0] : Fin 2 → Nat) a + S768x64.size a ≤ S768x64.size a
  h_S768x64 : 0 < S768x64.numel
  inb_S64_S64_0 : ∀ a, (![0] : Fin 1 → Nat) a + S64.size a ≤ S64.size a
  h_S64 : 0 < S64.numel
  shapeCasts_S64_S1x64 : S64.ShapeCasts S1x64
  broadcasts_S1x64_S2048x64 : S1x64.Broadcasts S2048x64
  reduces_S2048x64_S2048 : S2048x64.Reduces [1] S2048
  shapeCasts_S2048_S2048x1 : S2048.ShapeCasts S2048x1
  broadcasts_S2048x1_S2048x64 : S2048x1.Broadcasts S2048x64
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  packedbf16_S2048x64_S2048x64_0_0 : (Rect.unit (s := S2048x64) ![0, 0] S2048x64.size inb_S2048x64_S2048x64_0_0).PackedRows (EltTy.packing .bf16)
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  broadcasts_S1x64_S512x64 : S1x64.Broadcasts S512x64
  reduces_S512x64_S512 : S512x64.Reduces [1] S512
  shapeCasts_S512_S512x1 : S512.ShapeCasts S512x1
  broadcasts_S512x1_S512x64 : S512x1.Broadcasts S512x64
  reduces_S512x2048_S512 : S512x2048.Reduces [1] S512
  broadcasts_S512x1_S512x2048 : S512x1.Broadcasts S512x2048
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  shapeCasts_S512x64_S1x512x64 : S512x64.ShapeCasts S1x512x64
  dot_S2048x768_S768x64_S2048x64_1_0_0_1_n_n_wf : DotDims.WF S2048x768 S768x64 S2048x64 [1] [0] [0] [1] [] []
  dot_S512x768_S768x64_S512x64_1_0_0_1_n_n_wf : DotDims.WF S512x768 S768x64 S512x64 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x768.size a ≤ S8x2048x768.size a
  hwx0_0 : ∀ i : grid0.Coords, EltTy.bits .f32 = 32 ∨ (Rect.block (s := S8x2048x768) S1x512x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x768.size a ≤ S8x2048x768.size a
  hwx0_1 : ∀ i : grid0.Coords, EltTy.bits .f32 = 32 ∨ (Rect.block (s := S8x2048x768) S1x2048x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x768.size a ≤ S8x2048x768.size a
  hwx0_2 : ∀ i : grid0.Coords, EltTy.bits .f32 = 32 ∨ (Rect.block (s := S8x2048x768) S1x2048x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x64.size a ≤ S768x64.size a
  hwx0_3 : ∀ i : grid0.Coords, EltTy.bits .f32 = 32 ∨ (Rect.block (s := S768x64) S768x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768x64.size a ≤ S768x64.size a
  hwx0_5 : ∀ i : grid0.Coords, EltTy.bits .f32 = 32 ∨ (Rect.block (s := S768x64) S768x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S768x64.size a ≤ S768x64.size a
  hwx0_7 : ∀ i : grid0.Coords, EltTy.bits .f32 = 32 ∨ (Rect.block (s := S768x64) S768x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512x64.size a ≤ S8x2048x64.size a
  hwx0_9 : ∀ i : grid0.Coords, EltTy.bits .f32 = 32 ∨ (Rect.block (s := S8x2048x64) S1x512x64.size (cc0_transform_9 i) (hinb0_9 i)).WholeWords (EltTy.packing .f32)

variable [Facts₀]

def dot_S2048x768_S768x64_S2048x64_1_0_0_1_n_n : DotDims S2048x768 S768x64 S2048x64 where
  lhsContracting := [1]
  rhsContracting := [0]
  lhsNonContracting := [0]
  rhsNonContracting := [1]
  lhsBatch := []
  rhsBatch := []
  wf := dot_S2048x768_S768x64_S2048x64_1_0_0_1_n_n_wf
def dot_S512x768_S768x64_S512x64_1_0_0_1_n_n : DotDims S512x768 S768x64 S512x64 where
  lhsContracting := [1]
  rhsContracting := [0]
  lhsNonContracting := [0]
  rhsNonContracting := [1]
  lhsBatch := []
  rhsBatch := []
  wf := dot_S512x768_S768x64_S512x64_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S768x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S768x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S768x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S1x512x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8x2048x768 : Shape := ⟨3, ![8, 2048, 768]⟩
abbrev S768x64 : Shape := ⟨2, ![768, 64]⟩
abbrev S64 : Shape := ⟨1, ![64]⟩
abbrev S8x2048x64 : Shape := ⟨3, ![8, 2048, 64]⟩
abbrev S1x1x64 : Shape := ⟨3, ![1, 1, 64]⟩
abbrev S_ : Shape := ⟨0, ![]⟩
abbrev S8x2048 : Shape := ⟨2, ![8, 2048]⟩
abbrev S8x2048x1 : Shape := ⟨3, ![8, 2048, 1]⟩
abbrev S8x2048x2048 : Shape := ⟨3, ![8, 2048, 2048]⟩

abbrev nBuf : Space → Nat
  | .hbm => 55
  | .vmem => 0
  | .smem => 0
  | _ => 0

abbrev bufTy : (tb : Table) → Fin (tcTables nBuf tb) → BufTy
  | .hbm, ⟨0, _⟩ => ⟨S8x2048x768, .f32⟩
  | .hbm, ⟨1, _⟩ => ⟨S8x2048x768, .f32⟩
  | .hbm, ⟨2, _⟩ => ⟨S8x2048x768, .f32⟩
  | .hbm, ⟨3, _⟩ => ⟨S768x64, .f32⟩
  | .hbm, ⟨4, _⟩ => ⟨S64, .f32⟩
  | .hbm, ⟨5, _⟩ => ⟨S768x64, .f32⟩
  | .hbm, ⟨6, _⟩ => ⟨S64, .f32⟩
  | .hbm, ⟨7, _⟩ => ⟨S768x64, .f32⟩
  | .hbm, ⟨8, _⟩ => ⟨S64, .f32⟩
  | .hbm, ⟨9, _⟩ => ⟨S8x2048x64, .f32⟩
  | .hbm, ⟨10, _⟩ => ⟨S1x1x64, .f32⟩
  | .hbm, ⟨11, _⟩ => ⟨S8x2048x64, .f32⟩
  | .hbm, ⟨12, _⟩ => ⟨S8x2048x64, .f32⟩
  | .hbm, ⟨13, _⟩ => ⟨S8x2048x64, .f32⟩
  | .hbm, ⟨14, _⟩ => ⟨S1x1x64, .f32⟩
  | .hbm, ⟨15, _⟩ => ⟨S8x2048x64, .f32⟩
  | .hbm, ⟨16, _⟩ => ⟨S8x2048x64, .f32⟩
  | .hbm, ⟨17, _⟩ => ⟨S8x2048x64, .f32⟩
  | .hbm, ⟨18, _⟩ => ⟨S1x1x64, .f32⟩
  | .hbm, ⟨19, _⟩ => ⟨S8x2048x64, .f32⟩
  | .hbm, ⟨20, _⟩ => ⟨S8x2048x64, .f32⟩
  | .hbm, ⟨21, _⟩ => ⟨S8x2048x64, .f32⟩
  | .hbm, ⟨22, _⟩ => ⟨S_, .f32⟩
  | .hbm, ⟨23, _⟩ => ⟨S8x2048, .f32⟩
  | .hbm, ⟨24, _⟩ => ⟨S8x2048x1, .f32⟩
  | .hbm, ⟨25, _⟩ => ⟨S8x2048x1, .f32⟩
  | .hbm, ⟨26, _⟩ => ⟨S8x2048x64, .f32⟩
  | .hbm, ⟨27, _⟩ => ⟨S8x2048x64, .f32⟩
  | .hbm, ⟨28, _⟩ => ⟨S8x2048x64, .f32⟩
  | .hbm, ⟨29, _⟩ => ⟨S_, .f32⟩
  | .hbm, ⟨30, _⟩ => ⟨S8x2048, .f32⟩
  | .hbm, ⟨31, _⟩ => ⟨S8x2048x1, .f32⟩
  | .hbm, ⟨32, _⟩ => ⟨S8x2048x1, .f32⟩
  | .hbm, ⟨33, _⟩ => ⟨S8x2048x64, .f32⟩
  | .hbm, ⟨34, _⟩ => ⟨S8x2048x64, .f32⟩
  | .hbm, ⟨35, _⟩ => ⟨S_, .f32⟩
  | .hbm, ⟨36, _⟩ => ⟨S_, .f32⟩
  | .hbm, ⟨37, _⟩ => ⟨S8x2048x2048, .f32⟩
  | .hbm, ⟨38, _⟩ => ⟨S8x2048x2048, .f32⟩
  | .hbm, ⟨39, _⟩ => ⟨S8x2048x2048, .f32⟩
  | .hbm, ⟨40, _⟩ => ⟨S_, .f32⟩
  | .hbm, ⟨41, _⟩ => ⟨S8x2048, .f32⟩
  | .hbm, ⟨42, _⟩ => ⟨S_, .f32⟩
  | .hbm, ⟨43, _⟩ => ⟨S8x2048, .f32⟩
  | .hbm, ⟨44, _⟩ => ⟨S8x2048, .f32⟩
  | .hbm, ⟨45, _⟩ => ⟨S8x2048x1, .f32⟩
  | .hbm, ⟨46, _⟩ => ⟨S8x2048x2048, .f32⟩
  | .hbm, ⟨47, _⟩ => ⟨S8x2048x2048, .f32⟩
  | .hbm, ⟨48, _⟩ => ⟨S8x2048x2048, .f32⟩
  | .hbm, ⟨49, _⟩ => ⟨S_, .f32⟩
  | .hbm, ⟨50, _⟩ => ⟨S8x2048, .f32⟩
  | .hbm, ⟨51, _⟩ => ⟨S8x2048x1, .f32⟩
  | .hbm, ⟨52, _⟩ => ⟨S8x2048x2048, .f32⟩
  | .hbm, ⟨53, _⟩ => ⟨S8x2048x2048, .f32⟩
  | .hbm, ⟨54, _⟩ => ⟨S8x2048x64, .f32⟩
  | _, _ => ⟨S8x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call0_v0 : Ref sig .tc := ⟨.hbm, 21, rfl⟩
abbrev main_call0_cst : Ref sig .tc := ⟨.hbm, 22, rfl⟩
abbrev main_call0_v1 : Ref sig .tc := ⟨.hbm, 23, rfl⟩
abbrev main_call0_v2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_call1_v0 : Ref sig .tc := ⟨.hbm, 28, rfl⟩
abbrev main_call1_cst : Ref sig .tc := ⟨.hbm, 29, rfl⟩
abbrev main_call1_v1 : Ref sig .tc := ⟨.hbm, 30, rfl⟩
abbrev main_call1_v2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_0 : Ref sig .tc := ⟨.hbm, 40, rfl⟩
abbrev main_v22 : Ref sig .tc := ⟨.hbm, 41, rfl⟩
abbrev main_cst_1 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_2 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S8x2048x64_0_1_2 : S1x1x64.BroadcastsInDim S8x2048x64 (![0, 1, 2] : Fin 3 → Fin S8x2048x64.rank)
  reducesTo_S8x2048x64_S8x2048_d2 : S8x2048x64.ReducesTo [2] S8x2048
  h_S_ : 0 < S_.numel
  bcast_S8x2048_S8x2048x1_0_1 : S8x2048.BroadcastsInDim S8x2048x1 (![0, 1] : Fin 2 → Fin S8x2048x1.rank)
  bcast_S8x2048x1_S8x2048x64_0_1_2 : S8x2048x1.BroadcastsInDim S8x2048x64 (![0, 1, 2] : Fin 3 → Fin S8x2048x64.rank)
  bcast_S_S8x2048x2048 : S_.BroadcastsInDim S8x2048x2048 (![] : Fin 0 → Fin S8x2048x2048.rank)
  reducesTo_S8x2048x2048_S8x2048_d2 : S8x2048x2048.ReducesTo [2] S8x2048
  bcast_S_S8x2048 : S_.BroadcastsInDim S8x2048 (![] : Fin 0 → Fin S8x2048.rank)
  bcast_S8x2048x1_S8x2048x2048_0_1_2 : S8x2048x1.BroadcastsInDim S8x2048x2048 (![0, 1, 2] : Fin 3 → Fin S8x2048x2048.rank)
  dot_S8x2048x768_S768x64_S8x2048x64_2_0_01_1_n_n_wf : DotDims.WF S8x2048x768 S768x64 S8x2048x64 [2] [0] [0, 1] [1] [] []
  dot_S8x2048x64_S8x2048x64_S8x2048x2048_2_2_1_1_0_0_wf : DotDims.WF S8x2048x64 S8x2048x64 S8x2048x2048 [2] [2] [1] [1] [0] [0]
  dot_S8x2048x2048_S8x2048x64_S8x2048x64_2_1_1_2_0_0_wf : DotDims.WF S8x2048x2048 S8x2048x64 S8x2048x64 [2] [1] [1] [2] [0] [0]

variable [Facts₀]

def dot_S8x2048x768_S768x64_S8x2048x64_2_0_01_1_n_n : DotDims S8x2048x768 S768x64 S8x2048x64 where
  lhsContracting := [2]
  rhsContracting := [0]
  lhsNonContracting := [0, 1]
  rhsNonContracting := [1]
  lhsBatch := []
  rhsBatch := []
  wf := dot_S8x2048x768_S768x64_S8x2048x64_2_0_01_1_n_n_wf
def dot_S8x2048x64_S8x2048x64_S8x2048x2048_2_2_1_1_0_0 : DotDims S8x2048x64 S8x2048x64 S8x2048x2048 where
  lhsContracting := [2]
  rhsContracting := [2]
  lhsNonContracting := [1]
  rhsNonContracting := [1]
  lhsBatch := [0]
  rhsBatch := [0]
  wf := dot_S8x2048x64_S8x2048x64_S8x2048x2048_2_2_1_1_0_0_wf
def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf

class Facts : Prop extends Facts₀ where

variable [Facts]
-- ==== Proof.KernelPieces.lean ====
/-
  What one run of the kernel's body leaves behind, as functions of the blocks it loaded.

  At a grid point whose second coordinate is 0 (case A) the body projects the key block and makes its rows unit length,
  projects the value block, stores both in the two scratch arrays, and then computes the output block from the query
  block and those two arrays as just stored.  At every other point (case B) it stores nothing into the scratch arrays and
  computes the output block from the query block and what the scratch arrays already hold.  Each store covers its whole
  array, so what an array holds afterwards is the one stored value; each load reads a whole array.
-/
import proofs.«131064_j4964982194379_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- Case B, the output block: the attention of the query block against the scratch arrays as found. -/
theorem out_B (c : Dev nD) (i : grid0.Coords) (arg2 : Memref sig .tc .vmem S1x512x768 .f32) (harg2 : arg2.IsWhole) (arg3 : Memref sig .tc .vmem S1x2048x768 .f32) (harg3 : arg3.IsWhole) (arg4 : Memref sig .tc .vmem S1x2048x768 .f32) (harg4 : arg4.IsWhole) (arg5 : Memref sig .tc .vmem S768x64 .f32) (harg5 : arg5.IsWhole) (arg6 : Memref sig .tc .vmem S64 .f32) (harg6 : arg6.IsWhole) (arg7 : Memref sig .tc .vmem S768x64 .f32) (harg7 : arg7.IsWhole) (arg8 : Memref sig .tc .vmem S64 .f32) (harg8 : arg8.IsWhole) (arg9 : Memref sig .tc .vmem S768x64 .f32) (harg9 : arg9.IsWhole) (arg10 : Memref sig .tc .vmem S64 .f32) (harg10 : arg10.IsWhole) (arg11 : Memref sig .tc .vmem S1x512x64 .f32) (harg11 : arg11.IsWhole) (arg12 : Memref sig .tc .vmem S2048x64 .bf16) (harg12 : arg12.IsWhole) (arg13 : Memref sig .tc .vmem S2048x64 .bf16) (harg13 : arg13.IsWhole) (hc0 : ¬cond0_0 i) (x0 : Vec F S1x512x768 .f32) (x1 : Vec F S1x2048x768 .f32) (x2 : Vec F S1x2048x768 .f32) (x3 : Vec F S768x64 .f32) (x4 : Vec F S64 .f32) (x5 : Vec F S768x64 .f32) (x6 : Vec F S64 .f32) (x7 : Vec F S768x64 .f32) (x8 : Vec F S64 .f32) (xs0 xs1 : Vec F S2048x64 .bf16) :
    out0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1 = k0_pay1 (k0_pay4 x0 x3 x4 xs0 xs1) := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1)]
  unfold kernelRun0_B
  dsimp only
  sl_unfold_words
  rw [View.canon_unit_zero hz3]
  simp only [View.readAt_eq_ld, harg2.read_unread, harg5.read_unread, harg6.read_unread, harg12.read_unread, harg13.read_unread, View.ld_unit_zero (S := S1x512x768) hz3, View.ld_unit_zero (S := S1x2048x768) hz3, View.ld_unit_zero (S := S768x64) hz2, View.ld_unit_zero (S := S64) hz1, View.ld_unit_zero (S := S2048x64) hz2]

/-- Case A, the first scratch array: the key block projected, its rows made unit length. -/
theorem sout_A_0 (c : Dev nD) (i : grid0.Coords) (arg2 : Memref sig .tc .vmem S1x512x768 .f32) (harg2 : arg2.IsWhole) (arg3 : Memref sig .tc .vmem S1x2048x768 .f32) (harg3 : arg3.IsWhole) (arg4 : Memref sig .tc .vmem S1x2048x768 .f32) (harg4 : arg4.IsWhole) (arg5 : Memref sig .tc .vmem S768x64 .f32) (harg5 : arg5.IsWhole) (arg6 : Memref sig .tc .vmem S64 .f32) (harg6 : arg6.IsWhole) (arg7 : Memref sig .tc .vmem S768x64 .f32) (harg7 : arg7.IsWhole) (arg8 : Memref sig .tc .vmem S64 .f32) (harg8 : arg8.IsWhole) (arg9 : Memref sig .tc .vmem S768x64 .f32) (harg9 : arg9.IsWhole) (arg10 : Memref sig .tc .vmem S64 .f32) (harg10 : arg10.IsWhole) (arg11 : Memref sig .tc .vmem S1x512x64 .f32) (harg11 : arg11.IsWhole) (arg12 : Memref sig .tc .vmem S2048x64 .bf16) (harg12 : arg12.IsWhole) (arg13 : Memref sig .tc .vmem S2048x64 .bf16) (harg13 : arg13.IsWhole) (hc0 : cond0_0 i) (x0 : Vec F S1x512x768 .f32) (x1 : Vec F S1x2048x768 .f32) (x2 : Vec F S1x2048x768 .f32) (x3 : Vec F S768x64 .f32) (x4 : Vec F S64 .f32) (x5 : Vec F S768x64 .f32) (x6 : Vec F S64 .f32) (x7 : Vec F S768x64 .f32) (x8 : Vec F S64 .f32) :
    sout0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = k0_pay2 x1 x5 x6 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)]
  unfold kernelRun0_A
  dsimp only
  sl_unfold_words
  rw [View.canon_unit_zero hz2]
  simp only [View.readAt_eq_ld, harg3.read_unread, harg7.read_unread, harg8.read_unread, View.ld_unit_zero (S := S1x512x768) hz3, View.ld_unit_zero (S := S1x2048x768) hz3, View.ld_unit_zero (S := S768x64) hz2, View.ld_unit_zero (S := S64) hz1, View.ld_unit_zero (S := S2048x64) hz2]

/-- Case A, the second scratch array: the value block projected. -/
theorem sout_A_1 (c : Dev nD) (i : grid0.Coords) (arg2 : Memref sig .tc .vmem S1x512x768 .f32) (harg2 : arg2.IsWhole) (arg3 : Memref sig .tc .vmem S1x2048x768 .f32) (harg3 : arg3.IsWhole) (arg4 : Memref sig .tc .vmem S1x2048x768 .f32) (harg4 : arg4.IsWhole) (arg5 : Memref sig .tc .vmem S768x64 .f32) (harg5 : arg5.IsWhole) (arg6 : Memref sig .tc .vmem S64 .f32) (harg6 : arg6.IsWhole) (arg7 : Memref sig .tc .vmem S768x64 .f32) (harg7 : arg7.IsWhole) (arg8 : Memref sig .tc .vmem S64 .f32) (harg8 : arg8.IsWhole) (arg9 : Memref sig .tc .vmem S768x64 .f32) (harg9 : arg9.IsWhole) (arg10 : Memref sig .tc .vmem S64 .f32) (harg10 : arg10.IsWhole) (arg11 : Memref sig .tc .vmem S1x512x64 .f32) (harg11 : arg11.IsWhole) (arg12 : Memref sig .tc .vmem S2048x64 .bf16) (harg12 : arg12.IsWhole) (arg13 : Memref sig .tc .vmem S2048x64 .bf16) (harg13 : arg13.IsWhole) (hc0 : cond0_0 i) (x0 : Vec F S1x512x768 .f32) (x1 : Vec F S1x2048x768 .f32) (x2 : Vec F S1x2048x768 .f32) (x3 : Vec F S768x64 .f32) (x4 : Vec F S64 .f32) (x5 : Vec F S768x64 .f32) (x6 : Vec F S64 .f32) (x7 : Vec F S768x64 .f32) (x8 : Vec F S64 .f32) :
    sout0_A_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = k0_pay3 x2 x7 x8 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)]
  unfold kernelRun0_A
  dsimp only
  sl_unfold_words
  rw [View.canon_unit_zero hz2]
  simp only [View.readAt_eq_ld, harg4.read_unread, harg9.read_unread, harg10.read_unread, View.ld_unit_zero (S := S1x512x768) hz3, View.ld_unit_zero (S := S1x2048x768) hz3, View.ld_unit_zero (S := S768x64) hz2, View.ld_unit_zero (S := S64) hz1, View.ld_unit_zero (S := S2048x64) hz2]

/-- Case A, the output block: the attention of the query block against the two arrays just stored. -/
theorem out_A (c : Dev nD) (i : grid0.Coords) (arg2 : Memref sig .tc .vmem S1x512x768 .f32) (harg2 : arg2.IsWhole) (arg3 : Memref sig .tc .vmem S1x2048x768 .f32) (harg3 : arg3.IsWhole) (arg4 : Memref sig .tc .vmem S1x2048x768 .f32) (harg4 : arg4.IsWhole) (arg5 : Memref sig .tc .vmem S768x64 .f32) (harg5 : arg5.IsWhole) (arg6 : Memref sig .tc .vmem S64 .f32) (harg6 : arg6.IsWhole) (arg7 : Memref sig .tc .vmem S768x64 .f32) (harg7 : arg7.IsWhole) (arg8 : Memref sig .tc .vmem S64 .f32) (harg8 : arg8.IsWhole) (arg9 : Memref sig .tc .vmem S768x64 .f32) (harg9 : arg9.IsWhole) (arg10 : Memref sig .tc .vmem S64 .f32) (harg10 : arg10.IsWhole) (arg11 : Memref sig .tc .vmem S1x512x64 .f32) (harg11 : arg11.IsWhole) (arg12 : Memref sig .tc .vmem S2048x64 .bf16) (harg12 : arg12.IsWhole) (arg13 : Memref sig .tc .vmem S2048x64 .bf16) (harg13 : arg13.IsWhole) (hc0 : cond0_0 i) (x0 : Vec F S1x512x768 .f32) (x1 : Vec F S1x2048x768 .f32) (x2 : Vec F S1x2048x768 .f32) (x3 : Vec F S768x64 .f32) (x4 : Vec F S64 .f32) (x5 : Vec F S768x64 .f32) (x6 : Vec F S64 .f32) (x7 : Vec F S768x64 .f32) (x8 : Vec F S64 .f32) :
    out0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = k0_pay1 (k0_pay4 x0 x3 x4 (k0_pay2 x1 x5 x6) (k0_pay3 x2 x7 x8)) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)]
  unfold kernelRun0_A
  dsimp only
  sl_unfold_words
  rw [View.canon_unit_zero hz3, View.readCov_unit_zero (S := S2048x64) _ hz2, View.readCov_unit_zero (S := S2048x64) _ hz2]
  simp only [View.readAt_eq_ld, harg2.read_unread, harg3.read_unread, harg4.read_unread, harg5.read_unread, harg6.read_unread, harg7.read_unread, harg8.read_unread, harg9.read_unread, harg10.read_unread, View.ld_unit_zero (S := S1x512x768) hz3, View.ld_unit_zero (S := S1x2048x768) hz3, View.ld_unit_zero (S := S768x64) hz2, View.ld_unit_zero (S := S64) hz1, View.ld_unit_zero (S := S2048x64) hz2]

end Cert.KernelIdeal.Pieces

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.LibTransDot.lean ====
/-
  A matrix product against a transposed right operand, at the ideal values, read at an index.
  For the dimension numbers of an M×K by N×K product (`DotDims.transposedRhs M K N`: both operands contracted on their
  last axis, no batch axis) the kernel's `tpu.matmul` into a zero accumulator is, at the output index (a, b), the sum
  over k < K of l(a, k) · r(b, k) on the extended reals: the inner product of row a of the left operand with row b of
  the right one.
-/
import Idealize.ShloMosaic.PureOps.Ideal.Laws
import Idealize.ShloMosaic.Lib.ValueIdx

noncomputable section

namespace Cert.LibTransDot

open Idealize.ShloMosaic Idealize.ShloMosaic.ValueIdx

variable (M K N : Nat)

/-- The left operand's row is the output's row. -/
theorem lhs0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin 2) ∈ (DotDims.transposedRhs M K N).lhsBatch by simp [DotDims.transposedRhs]),
    dif_pos (show (0 : Fin 2) ∈ (DotDims.transposedRhs M K N).lhsNonContracting by simp [DotDims.transposedRhs])]
  rfl

/-- The left operand's column is the contraction index. -/
theorem lhs1 (i : (⟨2, ![M, N]⟩ : Shape).Idx) (q : (DotDims.transposedRhs M K N).contr.Idx) :
    ((DotDims.transposedRhs M K N).lhsIdx i q 1).val
      = (q ⟨0, by rw [(DotDims.transposedRhs M K N).rank_contr]; exact Nat.one_pos⟩).val :=
  (DotDims.transposedRhs M K N).lhsIdx_val_of_single rfl i q

/-- The right operand's row is the output's column. -/
theorem rhs0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin 2) ∈ (DotDims.transposedRhs M K N).rhsBatch by simp [DotDims.transposedRhs]),
    dif_pos (show (0 : Fin 2) ∈ (DotDims.transposedRhs M K N).rhsNonContracting by simp [DotDims.transposedRhs])]
  rfl

/-- The right operand's column is the contraction index. -/
theorem rhs1 (i : (⟨2, ![M, N]⟩ : Shape).Idx) (q : (DotDims.transposedRhs M K N).contr.Idx) :
    ((DotDims.transposedRhs M K N).rhsIdx i q 1).val
      = (q ⟨0, by rw [(DotDims.transposedRhs M K N).rank_contr]; exact Nat.one_pos⟩).val :=
  (DotDims.transposedRhs M K N).rhsIdx_val_of_single rfl i q

/-- The contraction's sum, re-indexed by k < K. -/
theorem sum_trans {φ₁ φ₂ : FTy} (l : FVec Ideal ⟨2, ![M, K]⟩ φ₁) (r : FVec Ideal ⟨2, ![N, K]⟩ φ₂) (j : (⟨2, ![M, N]⟩ : Shape).Idx) :
    ∑ k : (DotDims.transposedRhs M K N).contr.Idx,
        l ((DotDims.transposedRhs M K N).lhsIdx j k) * r ((DotDims.transposedRhs M K N).rhsIdx j k)
      = ∑ k : Fin K, l (ix2 (j 0) k) * r (ix2 (j 1) k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k) = ix2 (j 0) k :=
    funext fun a => Fin.ext (by
      match a with
      | ⟨0, _⟩ => exact lhs0 M K N _ _
      | ⟨1, _⟩ => exact (lhs1 M K N _ _).trans hk)
  have er : (DotDims.transposedRhs M K N).rhsIdx j ((contrEquiv1 (DotDims.transposedRhs M K N) K rfl rfl).symm k) = ix2 (j 1) k :=
    funext fun a => Fin.ext (by
      match a with
      | ⟨0, _⟩ => exact rhs0 M K N _ _
      | ⟨1, _⟩ => exact (rhs1 M K N _ _).trans hk)
  exact congr (congrArg HMul.hMul (congrArg l el)) (congrArg r er)

/-- The kernel's product into a zero accumulator, at an index. -/
theorem matmul_trans {φ₁ φ₂ : FTy} (prec : Option ContractPrecision) (l : FVec Ideal ⟨2, ![M, K]⟩ φ₁) (r : FVec Ideal ⟨2, ![N, K]⟩ φ₂)
    (j : (⟨2, ![M, N]⟩ : Shape).Idx) :
    matmul (F := Ideal) (DotDims.transposedRhs M K N) prec l r (constant ⟨2, ![M, N]⟩ .f32 0x00000000#32) j
      = ∑ k : Fin K, l (ix2 (j 0) k) * r (ix2 (j 1) k) :=
  (Ideal.matmul_constant_zero_apply (DotDims.transposedRhs M K N) prec l r j).trans (sum_trans M K N l r j)

end Cert.LibTransDot

end
-- ==== Proof.LibColumn.lean ====
/-
  Row-wise reductions kept as a column, read at an index, at the ideal values.
  A vector of a entries cast to an a×1 column reads its entry at the row; an a×1 column broadcast to a×b repeats each
  row's entry along the row; a sum (a maximum) along the rows of an a×b array is, at row i, the sum (the fold of max from
  the accumulator's value) over k < b of the entries (i, k).
-/
import Idealize.ShloMosaic.PureOps.Ideal.Laws
import Idealize.ShloMosaic.Lib.ValueIdx
import Idealize.ShloMosaic.Lib.Pipeline.Value

noncomputable section

namespace Cert.LibColumn

open Idealize.ShloMosaic Idealize.ShloMosaic.ValueIdx

variable {α : Type}

/-- An `[a]` array cast to an `[a, 1]` column reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index `i` of a sum along the rows, with the column `k` put back, is `(i, k)`. -/
theorem lift_row {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A sum along the rows of an `a × b` array, at row `i`: the sum of that row's entries. -/
theorem rowSum_apply {φ : FTy} {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (i : Fin a) :
    multiReduction (F := Ideal) .add [1] ⟨1, ![a]⟩ src acc h hφ hacc (ix1 i) = ∑ k : Fin b, src (ix2 i k) := by
  rw [Ideal.multiReduction_add_single]
  exact Finset.sum_congr rfl fun k _ => congrArg src (lift_row h i k)

/-- A maximum along the rows of an `a × b` array, at row `i`: the fold of `max` from the accumulator's value over that
    row's entries. -/
theorem rowMax_apply {φ : FTy} {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (i : Fin a) :
    multiReduction (F := Ideal) .maximumf [1] ⟨1, ![a]⟩ src acc h hφ hacc (ix1 i)
      = (Finset.univ : Finset (Fin b)).fold max (Ideal.ofBits φ acc) (fun k => src (ix2 i k)) := by
  rw [Ideal.multiReduction_maximumf_single]
  have hf : (src ∘ h.lift (ix1 i)) = fun k : Fin b => src (ix2 i k) := funext fun k => congrArg src (lift_row h i k)
  exact congrArg (fun f => Finset.fold max (Ideal.ofBits φ acc) f (Finset.univ : Finset (Fin b))) hf

end Cert.LibColumn

end
-- ==== Proof.ScaleLaw.lean ====
/-
  The one arithmetic law that joins the two programs: dividing an extended real by the square root of 64
  is multiplying it by one eighth.
-/
import Idealize.ShloMosaic.PureOps.Ideal

noncomputable section

namespace Cert.AttnLaws

open Idealize.ShloMosaic

/-- The real square root of 64 is 8. -/
theorem sqrt_sixty_four : Real.sqrt 64 = 8 := by
  rw [show (64 : ℝ) = 8 ^ 2 by norm_num]
  exact Real.sqrt_sq (by norm_num)

end Cert.AttnLaws

end
-- ==== Proof.AttnSpec.lean ====
/-
  Cosine attention with learned projections, as one function on the extended reals, row by row.

  For a query row q (768 entries), the key rows K s and value rows V s of the same batch element (s < 2048), the three
  weights and biases, and a scaling map sc:
      Q   = q·Wq + bq,   K' s = (K s)·Wk + bk,   V' s = (V s)·Wv + bv            (dense)
      Q̂   = Q / √(Σ Q²),  K̂ s = K' s / √(Σ (K' s)²)                              (unit)
      z s = sc (Σ_k Q̂ k · K̂ s k)                                                 (scores)
      w s = exp (z s − μ) / Σ_s' exp (z s' − μ),   μ = max(−∞, max_s z s)          (soft)
      out j = Σ_s w s · V' s j                                                     (mix)
  Every operation is the extended reals' own (division, square root and exponential with their conventions at 0 and at
  the infinities), so the function is defined for every input.  The two programs differ only in sc: one multiplies by
  the float 0.125, the other divides by the square root of the float 64; these are one map (`scale_eq`).
-/
import Idealize.ShloMosaic.PureOps.Ideal
import proofs.«131064_j4964982194379_2_alg».proof.Proof.ScaleLaw

noncomputable section

namespace Cert.AttnSpec

open Idealize.ShloMosaic

/-- −∞, as both programs spell it. -/
abbrev negInf : EReal := Ideal.ofBits .f32 0xFF800000#32

/-- A row times a weight matrix, plus a bias. -/
def dense {K N : ℕ} (x : Fin K → EReal) (W : Fin K → Fin N → EReal) (bias : Fin N → EReal) (j : Fin N) : EReal :=
  (∑ d : Fin K, x d * W d j) + bias j

/-- A row divided by its Euclidean length. -/
def unit {N : ℕ} (p : Fin N → EReal) (j : Fin N) : EReal :=
  Ideal.div (p j) (Ideal.sqrt (∑ k : Fin N, p k * p k))

/-- The scaled inner products of one row with each of S rows. -/
def scores {S N : ℕ} (sc : EReal → EReal) (qn : Fin N → EReal) (KN : Fin S → Fin N → EReal) (s : Fin S) : EReal :=
  sc (∑ k : Fin N, qn k * KN s k)

/-- The largest entry of a row, from −∞ (taken twice, as the programs do). -/
def rowMax {S : ℕ} (z : Fin S → EReal) : EReal :=
  max negInf ((Finset.univ : Finset (Fin S)).fold max negInf z)

/-- The softmax weights of a row. -/
def soft {S : ℕ} (z : Fin S → EReal) (s : Fin S) : EReal :=
  Ideal.div (Ideal.exp (z s - rowMax z)) (∑ s' : Fin S, Ideal.exp (z s' - rowMax z))

/-- A weighted sum of S rows. -/
def mix {S N : ℕ} (w : Fin S → EReal) (V : Fin S → Fin N → EReal) (j : Fin N) : EReal :=
  ∑ s : Fin S, w s * V s j

/-- One output row of the attention head. -/
def attnRow (sc : EReal → EReal) (q : Fin 768 → EReal) (K V : Fin 2048 → Fin 768 → EReal)
    (Wq : Fin 768 → Fin 64 → EReal) (bq : Fin 64 → EReal) (Wk : Fin 768 → Fin 64 → EReal) (bk : Fin 64 → EReal)
    (Wv : Fin 768 → Fin 64 → EReal) (bv : Fin 64 → EReal) (j : Fin 64) : EReal :=
  mix (soft (scores sc (unit (dense q Wq bq)) (fun s => unit (dense (K s) Wk bk)))) (fun s => dense (V s) Wv bv) j

/-- The kernel's scaling: times the float 0.125. -/
def scaleMul (x : EReal) : EReal := x * Ideal.ofBits .f32 0x3E000000#32

/-- The reference's scaling: divided by the square root of the float 64. -/
def scaleDiv (x : EReal) : EReal := Ideal.div x (Ideal.sqrt (Ideal.ofBits .f32 0x42800000#32))

/-- The float 64.0 is the real 64. -/
theorem ofBits_64 : Ideal.ofBits .f32 0x42800000#32 = ((64 : ℝ) : EReal) := by
  simp [Ideal.ofBits, Ideal.ieee, -EReal.coe_mul]; norm_num

/-- The float 0.125 is the real 1/8. -/
theorem ofBits_eighth : Ideal.ofBits .f32 0x3E000000#32 = ((1 / 8 : ℝ) : EReal) := by
  simp [Ideal.ofBits, Ideal.ieee, -EReal.coe_mul]; norm_num

/-- Dividing by √64 = 8 is multiplying by 1/8, for every extended real (no finiteness needed). -/
theorem scale_eq : scaleDiv = scaleMul := by
  funext x
  unfold scaleDiv scaleMul
  rw [ofBits_64, ofBits_eighth, Ideal.sqrt_coe, if_neg (by norm_num), Cert.AttnLaws.sqrt_sixty_four]
  exact Ideal.div_coe (by norm_num) x

end Cert.AttnSpec

end
-- ==== Proof.LibAttnStages.lean ====
/-
  The stages of an attention head as whole-array terms at the ideal values, each read at an index as a function of ONE row.
  Every extent is a variable (M rows in the block at hand, K input features, N projected features, S key rows):
    denseVec   x·w into a zero accumulator plus the bias row            at (a, c):  dense (row a of x) w b c
    unitVec    p divided by the broadcast column of √(row sums of p²)    at (a, c):  unit (row a of p) c
    scoreVec   q·kᵀ into a zero accumulator, times a splat scalar        at (a, s):  (Σ_k q(a,k)·k(s,k)) · c
    softVec    exp(z − rowmax) / rowsum, rowmax from −∞ taken twice      at (a, s):  soft (row a of z) s
    attnBlock  the four composed and mixed with the value rows           at (a, c):  mix (soft (scores …)) v c
  So a block of M query rows is computed row by row, whatever M is.
-/
import Idealize.ShloMosaic.PureOps.Ideal.Laws
import Idealize.ShloMosaic.Lib.ValueIdx
import Idealize.ShloMosaic.Lib.ValueLayout
import Idealize.ShloMosaic.Lib.Pipeline.Value
import proofs.«131064_j4964982194379_2_alg».proof.Proof.LibPlainDot
import proofs.«131064_j4964982194379_2_alg».proof.Proof.LibTransDot
import proofs.«131064_j4964982194379_2_alg».proof.Proof.LibColumn
import proofs.«131064_j4964982194379_2_alg».proof.Proof.AttnSpec

noncomputable section

namespace Cert.LibAttnStages

open Idealize.ShloMosaic Idealize.ShloMosaic.ValueIdx Cert.AttnSpec Cert.LibColumn

variable (M K N S : Nat)

/-! ## A plain product at a named row and column -/

theorem matmul_plain_at {φ₁ φ₂ : FTy} (prec : Option ContractPrecision) (l : FVec Ideal ⟨2, ![M, K]⟩ φ₁) (r : FVec Ideal ⟨2, ![K, N]⟩ φ₂)
    (a : Fin M) (c : Fin N) :
    matmul (F := Ideal) (DotDims.plain M K N) prec l r (constant ⟨2, ![M, N]⟩ .f32 0x00000000#32) (ix2 a c)
      = ∑ k : Fin K, l (ix2 a k) * r (ix2 k c) :=
  Cert.LibPlainDot.matmul_plain M K N prec l r (ix2 a c)

theorem matmul_trans_at {φ₁ φ₂ : FTy} (prec : Option ContractPrecision) (l : FVec Ideal ⟨2, ![M, K]⟩ φ₁) (r : FVec Ideal ⟨2, ![N, K]⟩ φ₂)
    (a : Fin M) (c : Fin N) :
    matmul (F := Ideal) (DotDims.transposedRhs M K N) prec l r (constant ⟨2, ![M, N]⟩ .f32 0x00000000#32) (ix2 a c)
      = ∑ k : Fin K, l (ix2 a k) * r (ix2 c k) :=
  Cert.LibTransDot.matmul_trans M K N prec l r (ix2 a c)

/-! ## The dense stage -/

/-- x·w into a zero accumulator, plus the bias (a vector cast to one row) broadcast over the rows. -/
def denseVec (prec : Option ContractPrecision) (x : FVec Ideal ⟨2, ![M, K]⟩ .f32) (w : FVec Ideal ⟨2, ![K, N]⟩ .f32)
    (b : FVec Ideal ⟨1, ![N]⟩ .f32) (hc : (⟨1, ![N]⟩ : Shape).ShapeCasts ⟨2, ![1, N]⟩)
    (hb : (⟨2, ![1, N]⟩ : Shape).Broadcasts ⟨2, ![M, N]⟩) : FVec Ideal ⟨2, ![M, N]⟩ .f32 :=
  addf (matmul (F := Ideal) (DotDims.plain M K N) prec x w (constant ⟨2, ![M, N]⟩ .f32 0x00000000#32))
    (broadcastTo ⟨2, ![M, N]⟩ (shapeCast ⟨2, ![1, N]⟩ b hc) hb)

theorem denseVec_apply (prec : Option ContractPrecision) (x : FVec Ideal ⟨2, ![M, K]⟩ .f32) (w : FVec Ideal ⟨2, ![K, N]⟩ .f32)
    (b : FVec Ideal ⟨1, ![N]⟩ .f32) (hc : (⟨1, ![N]⟩ : Shape).ShapeCasts ⟨2, ![1, N]⟩)
    (hb : (⟨2, ![1, N]⟩ : Shape).Broadcasts ⟨2, ![M, N]⟩) (a : Fin M) (c : Fin N) :
    denseVec M K N prec x w b hc hb (ix2 a c)
      = dense (fun k => x (ix2 a k)) (fun k n => w (ix2 k n)) (fun n => b (ix1 n)) c := by
  unfold denseVec dense
  rw [addf_apply, matmul_plain_at, broadcastTo_1b_ab_apply, shapeCast_a_1a_apply]

/-! ## The unit-length stage -/

/-- p divided, row by row, by the square root of the row's sum of squares (kept as a column and broadcast back). -/
def unitVec (p : FVec Ideal ⟨2, ![M, N]⟩ .f32) (hr : (⟨2, ![M, N]⟩ : Shape).Reduces [1] ⟨1, ![M]⟩) (hφ : FKind.Formats .f32)
    (hadd : (0x00000000#32 : BitVec FTy.f32.bits) = FKind.add.neutral .f32 hφ)
    (hc : (⟨1, ![M]⟩ : Shape).ShapeCasts ⟨2, ![M, 1]⟩) (hb : (⟨2, ![M, 1]⟩ : Shape).Broadcasts ⟨2, ![M, N]⟩) :
    FVec Ideal ⟨2, ![M, N]⟩ .f32 :=
  divf p (broadcastTo ⟨2, ![M, N]⟩
    (sqrt (shapeCast ⟨2, ![M, 1]⟩ (multiReduction .add [1] ⟨1, ![M]⟩ (mulf p p) 0x00000000#32 hr hφ hadd) hc)) hb)

theorem unitVec_apply (p : FVec Ideal ⟨2, ![M, N]⟩ .f32) (hr : (⟨2, ![M, N]⟩ : Shape).Reduces [1] ⟨1, ![M]⟩) (hφ : FKind.Formats .f32)
    (hadd : (0x00000000#32 : BitVec FTy.f32.bits) = FKind.add.neutral .f32 hφ)
    (hc : (⟨1, ![M]⟩ : Shape).ShapeCasts ⟨2, ![M, 1]⟩) (hb : (⟨2, ![M, 1]⟩ : Shape).Broadcasts ⟨2, ![M, N]⟩) (a : Fin M) (c : Fin N) :
    unitVec M N p hr hφ hadd hc hb (ix2 a c) = unit (fun n => p (ix2 a n)) c := by
  unfold unitVec unit
  rw [divf_apply, broadcastTo_a1_ab_apply]
  show Ideal.div (p (ix2 a c)) (Ideal.sqrt (shapeCast ⟨2, ![M, 1]⟩ _ hc (ix2 a (0 : Fin 1)))) = _
  rw [shapeCast_a_a1_apply, rowSum_apply]
  rfl

/-! ## The scores -/

/-- q·kᵀ into a zero accumulator, times a scalar splat over the array. -/
def scoreVec {φ₁ φ₂ : FTy} (prec : Option ContractPrecision) (q : FVec Ideal ⟨2, ![M, N]⟩ φ₁) (k : FVec Ideal ⟨2, ![S, N]⟩ φ₂)
    (c : Ideal .f32) : FVec Ideal ⟨2, ![M, S]⟩ .f32 :=
  mulf (matmul (F := Ideal) (DotDims.transposedRhs M N S) prec q k (constant ⟨2, ![M, S]⟩ .f32 0x00000000#32))
    (broadcast ⟨2, ![M, S]⟩ c)

theorem scoreVec_apply {φ₁ φ₂ : FTy} (prec : Option ContractPrecision) (q : FVec Ideal ⟨2, ![M, N]⟩ φ₁) (k : FVec Ideal ⟨2, ![S, N]⟩ φ₂)
    (c : Ideal .f32) (a : Fin M) (s : Fin S) :
    scoreVec M N S prec q k c (ix2 a s)
      = scores (fun x => x * c) (fun n => q (ix2 a n)) (fun s' n => k (ix2 s' n)) s := by
  unfold scoreVec scores
  rw [mulf_apply, matmul_trans_at, broadcast_apply]

/-! ## The softmax -/

/-- exp (z − the row's maximum), the maximum taken from −∞ and once more against −∞, kept as a column and broadcast back. -/
def shiftExp (z : FVec Ideal ⟨2, ![M, S]⟩ .f32) (hr : (⟨2, ![M, S]⟩ : Shape).Reduces [1] ⟨1, ![M]⟩) (hφ : FKind.Formats .f32)
    (hmax : (0xFF800000#32 : BitVec FTy.f32.bits) = FKind.maximumf.neutral .f32 hφ)
    (hc : (⟨1, ![M]⟩ : Shape).ShapeCasts ⟨2, ![M, 1]⟩) (hb : (⟨2, ![M, 1]⟩ : Shape).Broadcasts ⟨2, ![M, S]⟩) :
    FVec Ideal ⟨2, ![M, S]⟩ .f32 :=
  exp (subf z (broadcastTo ⟨2, ![M, S]⟩ (shapeCast ⟨2, ![M, 1]⟩
    (maximumf (broadcast ⟨1, ![M]⟩ (Scalar.ofBits (F := Ideal) .f32 0xFF800000#32))
      (multiReduction .maximumf [1] ⟨1, ![M]⟩ z 0xFF800000#32 hr hφ hmax)) hc) hb))

theorem shiftExp_apply (z : FVec Ideal ⟨2, ![M, S]⟩ .f32) (hr : (⟨2, ![M, S]⟩ : Shape).Reduces [1] ⟨1, ![M]⟩) (hφ : FKind.Formats .f32)
    (hmax : (0xFF800000#32 : BitVec FTy.f32.bits) = FKind.maximumf.neutral .f32 hφ)
    (hc : (⟨1, ![M]⟩ : Shape).ShapeCasts ⟨2, ![M, 1]⟩) (hb : (⟨2, ![M, 1]⟩ : Shape).Broadcasts ⟨2, ![M, S]⟩) (a : Fin M) (s : Fin S) :
    shiftExp M S z hr hφ hmax hc hb (ix2 a s) = Ideal.exp (z (ix2 a s) - rowMax (fun s' => z (ix2 a s'))) := by
  unfold shiftExp
  show Ideal.exp (z (ix2 a s) - broadcastTo ⟨2, ![M, S]⟩ _ hb (ix2 a s)) = _
  rw [broadcastTo_a1_ab_apply, shapeCast_a_a1_apply, maximumf_apply, broadcast_apply, rowMax_apply]
  rfl

/-- The shifted exponentials divided by their row sums (kept as a column and broadcast back). -/
def softVec (z : FVec Ideal ⟨2, ![M, S]⟩ .f32) (hr : (⟨2, ![M, S]⟩ : Shape).Reduces [1] ⟨1, ![M]⟩) (hφ : FKind.Formats .f32)
    (hmax : (0xFF800000#32 : BitVec FTy.f32.bits) = FKind.maximumf.neutral .f32 hφ) (hφ' : FKind.Formats .f32)
    (hadd : (0x00000000#32 : BitVec FTy.f32.bits) = FKind.add.neutral .f32 hφ')
    (hc : (⟨1, ![M]⟩ : Shape).ShapeCasts ⟨2, ![M, 1]⟩) (hb : (⟨2, ![M, 1]⟩ : Shape).Broadcasts ⟨2, ![M, S]⟩) :
    FVec Ideal ⟨2, ![M, S]⟩ .f32 :=
  divf (shiftExp M S z hr hφ hmax hc hb) (broadcastTo ⟨2, ![M, S]⟩ (shapeCast ⟨2, ![M, 1]⟩
    (multiReduction .add [1] ⟨1, ![M]⟩ (shiftExp M S z hr hφ hmax hc hb) 0x00000000#32 hr hφ' hadd) hc) hb)

theorem softVec_apply (z : FVec Ideal ⟨2, ![M, S]⟩ .f32) (hr : (⟨2, ![M, S]⟩ : Shape).Reduces [1] ⟨1, ![M]⟩) (hφ : FKind.Formats .f32)
    (hmax : (0xFF800000#32 : BitVec FTy.f32.bits) = FKind.maximumf.neutral .f32 hφ) (hφ' : FKind.Formats .f32)
    (hadd : (0x00000000#32 : BitVec FTy.f32.bits) = FKind.add.neutral .f32 hφ')
    (hc : (⟨1, ![M]⟩ : Shape).ShapeCasts ⟨2, ![M, 1]⟩) (hb : (⟨2, ![M, 1]⟩ : Shape).Broadcasts ⟨2, ![M, S]⟩) (a : Fin M) (s : Fin S) :
    softVec M S z hr hφ hmax hφ' hadd hc hb (ix2 a s) = soft (fun s' => z (ix2 a s')) s := by
  unfold softVec soft
  rw [divf_apply, broadcastTo_a1_ab_apply, shapeCast_a_a1_apply, rowSum_apply]
  simp only [shiftExp_apply]

/-! ## A block of query rows against all key and value rows -/

/-- The query rows projected and made unit length, scored against the (already unit-length) key rows, softmaxed, and
    mixed with the (already projected) value rows; the narrowings to a 16-bit format are the identity here. -/
def attnBlock (prec : Option ContractPrecision) (x : FVec Ideal ⟨2, ![M, K]⟩ .f32) (w : FVec Ideal ⟨2, ![K, N]⟩ .f32)
    (b : FVec Ideal ⟨1, ![N]⟩ .f32) (kn v : FVec Ideal ⟨2, ![S, N]⟩ .bf16) (c : Ideal .f32)
    (hc1 : (⟨1, ![N]⟩ : Shape).ShapeCasts ⟨2, ![1, N]⟩) (hb1 : (⟨2, ![1, N]⟩ : Shape).Broadcasts ⟨2, ![M, N]⟩)
    (hrN : (⟨2, ![M, N]⟩ : Shape).Reduces [1] ⟨1, ![M]⟩) (hcM : (⟨1, ![M]⟩ : Shape).ShapeCasts ⟨2, ![M, 1]⟩)
    (hbN : (⟨2, ![M, 1]⟩ : Shape).Broadcasts ⟨2, ![M, N]⟩)
    (hrS : (⟨2, ![M, S]⟩ : Shape).Reduces [1] ⟨1, ![M]⟩) (hbS : (⟨2, ![M, 1]⟩ : Shape).Broadcasts ⟨2, ![M, S]⟩)
    (hφ : FKind.Formats .f32) (hadd : (0x00000000#32 : BitVec FTy.f32.bits) = FKind.add.neutral .f32 hφ)
    (hmax : (0xFF800000#32 : BitVec FTy.f32.bits) = FKind.maximumf.neutral .f32 hφ)
    (hlt : FTy.bf16.bits < FTy.f32.bits) : FVec Ideal ⟨2, ![M, N]⟩ .f32 :=
  matmul (F := Ideal) (DotDims.plain M S N) none
    (truncf .bf16 (softVec M S
      (scoreVec M N S none (truncf .bf16 (unitVec M N (denseVec M K N prec x w b hc1 hb1) hrN hφ hadd hcM hbN) hlt) kn c)
      hrS hφ hmax hφ hadd hcM hbS) hlt)
    v (constant ⟨2, ![M, N]⟩ .f32 0x00000000#32)

theorem attnBlock_apply (prec : Option ContractPrecision) (x : FVec Ideal ⟨2, ![M, K]⟩ .f32) (w : FVec Ideal ⟨2, ![K, N]⟩ .f32)
    (b : FVec Ideal ⟨1, ![N]⟩ .f32) (kn v : FVec Ideal ⟨2, ![S, N]⟩ .bf16) (c : Ideal .f32)
    (hc1 : (⟨1, ![N]⟩ : Shape).ShapeCasts ⟨2, ![1, N]⟩) (hb1 : (⟨2, ![1, N]⟩ : Shape).Broadcasts ⟨2, ![M, N]⟩)
    (hrN : (⟨2, ![M, N]⟩ : Shape).Reduces [1] ⟨1, ![M]⟩) (hcM : (⟨1, ![M]⟩ : Shape).ShapeCasts ⟨2, ![M, 1]⟩)
    (hbN : (⟨2, ![M, 1]⟩ : Shape).Broadcasts ⟨2, ![M, N]⟩)
    (hrS : (⟨2, ![M, S]⟩ : Shape).Reduces [1] ⟨1, ![M]⟩) (hbS : (⟨2, ![M, 1]⟩ : Shape).Broadcasts ⟨2, ![M, S]⟩)
    (hφ : FKind.Formats .f32) (hadd : (0x00000000#32 : BitVec FTy.f32.bits) = FKind.add.neutral .f32 hφ)
    (hmax : (0xFF800000#32 : BitVec FTy.f32.bits) = FKind.maximumf.neutral .f32 hφ)
    (hlt : FTy.bf16.bits < FTy.f32.bits) (a : Fin M) (j : Fin N) :
    attnBlock M K N S prec x w b kn v c hc1 hb1 hrN hcM hbN hrS hbS hφ hadd hmax hlt (ix2 a j)
      = mix (soft (scores (fun y => y * c)
              (unit (dense (fun k => x (ix2 a k)) (fun k n => w (ix2 k n)) (fun n => b (ix1 n))))
              (fun s n => kn (ix2 s n))))
          (fun s n => v (ix2 s n)) j := by
  unfold attnBlock
  rw [matmul_plain_at]
  simp only [truncf_apply, softVec_apply, scoreVec_apply, unitVec_apply, denseVec_apply]
  rfl

end Cert.LibAttnStages

end
-- ==== Proof.KernelPayloads.lean ====
/-
  The kernel body's four stored values at the ideal values, read at an index.

  The value stored into the first scratch array is the key block projected and its rows made unit length; into the
  second, the value block projected; the output block is the attention of the query block's rows against whatever the two
  scratch arrays hold; and the last cast only adds a leading unit axis.  Each is a composition of the stage terms
  (by unfolding), so each entry is the row function of the specification applied to the rows it depends on.
-/
import proofs.«131064_j4964982194379_2_alg».proof.Proof.Gen.KernelIdeal.Skeleton
import proofs.«131064_j4964982194379_2_alg».proof.Proof.LibAttnStages

noncomputable section

namespace Cert.KernelIdeal.Payloads

open Cert.KernelIdeal Cert.KernelIdeal.Gen Idealize.ShloMosaic Idealize.ShloMosaic.ValueIdx Cert.AttnSpec Cert.LibAttnStages

/-- f32 is a format the reductions admit, and the two accumulator words are their neutral elements. -/
theorem hfmt : FKind.Formats .f32 := .inl rfl
theorem hadd0 : (0x00000000#32 : BitVec FTy.f32.bits) = FKind.add.neutral .f32 hfmt := rfl
theorem hmaxN : (0xFF800000#32 : BitVec FTy.f32.bits) = FKind.maximumf.neutral .f32 hfmt := rfl

/-- The projected value block, as the dense stage of the block with its unit axis dropped. -/
theorem pay3_eq (v41 : Vec Ideal S1x2048x768 .f32) (v49 : Vec Ideal S768x64 .f32) (v51 : Vec Ideal S64 .f32) :
    k0_pay3 (F := Ideal) v41 v49 v51
      = shapeCast S2048x64 (truncf .bf16 (denseVec 2048 768 64 (some .fp32)
          (shapeCast S2048x768 v41 shapeCasts_S1x2048x768_S2048x768) v49 v51 shapeCasts_S64_S1x64 broadcasts_S1x64_S2048x64)
          bitsLt_bf16_f32) shapeCasts_S2048x64_S2048x64 := rfl

/-- Entry (s, j) of the projected value block: row s of the block times the weight, plus the bias. -/
theorem pay3_apply (v41 : Vec Ideal S1x2048x768 .f32) (v49 : Vec Ideal S768x64 .f32) (v51 : Vec Ideal S64 .f32)
    (s : Fin 2048) (j : Fin 64) :
    k0_pay3 (F := Ideal) v41 v49 v51 (ix2 s j)
      = dense (fun d => v41 (ix3 (0 : Fin 1) s d)) (fun d n => v49 (ix2 d n)) (fun n => v51 (ix1 n)) j := by
  rw [pay3_eq, shapeCast_self, truncf_apply, denseVec_apply]
  simp only [shapeCast_1ab_ab_apply]

/-- The unit-length projected key block, as the two stages composed. -/
theorem pay2_eq (v39 : Vec Ideal S1x2048x768 .f32) (v43 : Vec Ideal S768x64 .f32) (v45 : Vec Ideal S64 .f32) :
    k0_pay2 (F := Ideal) v39 v43 v45
      = shapeCast S2048x64 (truncf .bf16 (unitVec 2048 64 (denseVec 2048 768 64 (some .fp32)
          (shapeCast S2048x768 v39 shapeCasts_S1x2048x768_S2048x768) v43 v45 shapeCasts_S64_S1x64 broadcasts_S1x64_S2048x64)
          reduces_S2048x64_S2048 hfmt hadd0 shapeCasts_S2048_S2048x1 broadcasts_S2048x1_S2048x64)
          bitsLt_bf16_f32) shapeCasts_S2048x64_S2048x64 := rfl

/-- Entry (s, j) of the unit-length projected key block. -/
theorem pay2_apply (v39 : Vec Ideal S1x2048x768 .f32) (v43 : Vec Ideal S768x64 .f32) (v45 : Vec Ideal S64 .f32)
    (s : Fin 2048) (j : Fin 64) :
    k0_pay2 (F := Ideal) v39 v43 v45 (ix2 s j)
      = unit (dense (fun d => v39 (ix3 (0 : Fin 1) s d)) (fun d n => v43 (ix2 d n)) (fun n => v45 (ix1 n))) j := by
  rw [pay2_eq, shapeCast_self, truncf_apply]
  refine (unitVec_apply 2048 64 _ _ _ _ _ _ s j).trans ?_
  simp only [denseVec_apply, shapeCast_1ab_ab_apply]

/-- The output block before its last cast, as the attention block of the query block with its unit axis dropped. -/
theorem pay4_eq (v3 : Vec Ideal S1x512x768 .f32) (v5 : Vec Ideal S768x64 .f32) (v7 : Vec Ideal S64 .f32)
    (v18 v33 : Vec Ideal S2048x64 .bf16) :
    k0_pay4 (F := Ideal) v3 v5 v7 v18 v33
      = attnBlock 512 768 64 2048 (some .fp32) (shapeCast S512x768 v3 shapeCasts_S1x512x768_S512x768) v5 v7 v18 v33
          (Scalar.ofBits (F := Ideal) .f32 0x3E000000#32) shapeCasts_S64_S1x64 broadcasts_S1x64_S512x64 reduces_S512x64_S512
          shapeCasts_S512_S512x1 broadcasts_S512x1_S512x64 reduces_S512x2048_S512 broadcasts_S512x1_S512x2048
          hfmt hadd0 hmaxN bitsLt_bf16_f32 := rfl

/-- Entry (r, j) of the output block: row r of the query block attended over the rows the two scratch arrays hold. -/
theorem pay4_apply (v3 : Vec Ideal S1x512x768 .f32) (v5 : Vec Ideal S768x64 .f32) (v7 : Vec Ideal S64 .f32)
    (v18 v33 : Vec Ideal S2048x64 .bf16) (r : Fin 512) (j : Fin 64) :
    k0_pay4 (F := Ideal) v3 v5 v7 v18 v33 (ix2 r j)
      = mix (soft (scores scaleMul
              (unit (dense (fun d => v3 (ix3 (0 : Fin 1) r d)) (fun d n => v5 (ix2 d n)) (fun n => v7 (ix1 n))))
              (fun s n => v18 (ix2 s n))))
          (fun s n => v33 (ix2 s n)) j := by
  rw [pay4_eq]
  refine (attnBlock_apply 512 768 64 2048 _ _ _ _ _ _ _ _ _ _ _ _ _ _ _ _ _ _ r j).trans ?_
  simp only [shapeCast_1ab_ab_apply]
  rfl

/-- The last cast adds a leading unit axis. -/
theorem pay1_apply (v35 : FVec Ideal S512x64 .f32) (u : Fin 1) (r : Fin 512) (j : Fin 64) :
    k0_pay1 (F := Ideal) v35 (ix3 u r j) = v35 (ix2 r j) := by
  unfold k0_pay1
  exact shapeCast_ab_1ab_apply v35 shapeCasts_S512x64_S1x512x64 u r j

end Cert.KernelIdeal.Payloads

end
-- ==== Proof.AttnWhole.lean ====
/-
  The attention head over the whole arrays: entry (b, s, j) of the result is the output row of query row (b, s) against
  the key and value rows of batch element b, at feature j.
-/
import Idealize.ShloMosaic.Lib.ValueIdx
import proofs.«131064_j4964982194379_2_alg».proof.Proof.AttnSpec

noncomputable section

namespace Cert.AttnSpec

open Idealize.ShloMosaic Idealize.ShloMosaic.ValueIdx

/-- The result array as one function of the nine argument arrays, for a scaling map `sc`. -/
def whole (sc : EReal → EReal)
    (X0 X1 X2 : (⟨3, ![8, 2048, 768]⟩ : Shape).Idx → EReal)
    (X3 : (⟨2, ![768, 64]⟩ : Shape).Idx → EReal) (X4 : (⟨1, ![64]⟩ : Shape).Idx → EReal)
    (X5 : (⟨2, ![768, 64]⟩ : Shape).Idx → EReal) (X6 : (⟨1, ![64]⟩ : Shape).Idx → EReal)
    (X7 : (⟨2, ![768, 64]⟩ : Shape).Idx → EReal) (X8 : (⟨1, ![64]⟩ : Shape).Idx → EReal) :
    (⟨3, ![8, 2048, 64]⟩ : Shape).Idx → EReal := fun i =>
  attnRow sc (fun d => X0 (ix3 (i 0) (i 1) d)) (fun s d => X1 (ix3 (i 0) s d)) (fun s d => X2 (ix3 (i 0) s d))
    (fun d n => X3 (ix2 d n)) (fun n => X4 (ix1 n)) (fun d n => X5 (ix2 d n)) (fun n => X6 (ix1 n))
    (fun d n => X7 (ix2 d n)) (fun n => X8 (ix1 n)) (i 2)

/-- The two programs' scalings give one result. -/
theorem whole_scale : whole scaleDiv = whole scaleMul := by rw [scale_eq]

end Cert.AttnSpec

end
-- ==== Proof.KernelValue.lean ====
/-
  The kernel's result array, as one function of its argument arrays.

  The grid has 8 × 4 points; point t = 4·b + q handles the q-th block of 512 query rows of batch element b.  The key and
  value windows do not move with q, and the two scratch arrays are written only where q = 0, so after ANY point t they
  hold the unit-length projected key rows and the projected value rows of batch element t / 4 (an induction over the
  points: a point with q ≠ 0 leaves what the point before left, and has the same batch element).  Hence what point t writes
  back is, row by row, the attention head's output for query rows 512·q … 512·q + 511 of batch element b, and the 32
  blocks written back tile the result array.
-/
import proofs.«131064_j4964982194379_2_alg».proof.Proof.Gen.KernelIdeal.Value
import proofs.«131064_j4964982194379_2_alg».proof.Proof.KernelPieces
import proofs.«131064_j4964982194379_2_alg».proof.Proof.KernelPayloads
import proofs.«131064_j4964982194379_2_alg».proof.Proof.AttnWhole

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.AttnSpec Cert.KernelIdeal.Payloads
open Idealize.ShloMosaic.Pipeline (Dat)

/-! ## What the three carried arrays hold after a point, over what the point before left (any float instance) -/

section AnyF

variable {F : FTy → Type} [FloatOps F]
variable (m : (ℓ : Loc nD τ sig) → Buf (Elt F) ℓ)

/-- At a point with q = 0: the scratch arrays are recomputed from the point's key and value blocks, the output block from
    the query block and those. -/
theorem outs_A (c : Dev nD) (t : Fin cfg0.N) (h0 : t.val % 4 = 0) :
    outsAt0 m c t.val t.isLt
      = (k0_pay1 (k0_pay4 (iblk m c 0 t) (iblk m c 3 t) (iblk m c 4 t)
            (k0_pay2 (iblk m c 1 t) (iblk m c 5 t) (iblk m c 6 t)) (k0_pay3 (iblk m c 2 t) (iblk m c 7 t) (iblk m c 8 t))),
          k0_pay2 (iblk m c 1 t) (iblk m c 5 t) (iblk m c 6 t), k0_pay3 (iblk m c 2 t) (iblk m c 7 t) (iblk m c 8 t)) := by
  rw [outsAt0_A m c t h0, Prod.mk.injEq, Prod.mk.injEq]
  exact ⟨Cert.KernelIdeal.Pieces.out_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t),
    Cert.KernelIdeal.Pieces.sout_A_0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t),
    Cert.KernelIdeal.Pieces.sout_A_1 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t)⟩

/-- At a point with q ≠ 0: the scratch arrays are what the point before left, the output block is computed from them. -/
theorem outs_B (c : Dev nD) (t : Fin cfg0.N) (h0 : ¬t.val % 4 = 0) :
    outsAt0 m c t.val t.isLt
      = (k0_pay1 (k0_pay4 (iblk m c 0 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2),
          (outsAt0 m c (t.val - 1) (Nat.lt_of_le_of_lt (Nat.sub_le _ _) t.isLt)).2.1, (outsAt0 m c (t.val - 1) (Nat.lt_of_le_of_lt (Nat.sub_le _ _) t.isLt)).2.2) := by
  rw [outsAt0_B m c t h0, Prod.mk.injEq, Prod.mk.injEq]
  exact ⟨Cert.KernelIdeal.Pieces.out_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t)
      (outsAt0 m c (t.val - 1) (Nat.lt_of_le_of_lt (Nat.sub_le _ _) t.isLt)).2.1 (outsAt0 m c (t.val - 1) (Nat.lt_of_le_of_lt (Nat.sub_le _ _) t.isLt)).2.2, rfl, rfl⟩

/-- Either way the output block is the attention of the point's query block against the scratch arrays AS THEY ARE AFTER
    the point. -/
theorem out_of_scratch (c : Dev nD) (t : Fin cfg0.N) :
    (outsAt0 m c t.val t.isLt).1
      = k0_pay1 (k0_pay4 (iblk m c 0 t) (iblk m c 3 t) (iblk m c 4 t) (outsAt0 m c t.val t.isLt).2.1 (outsAt0 m c t.val t.isLt).2.2) := by
  by_cases h0 : t.val % 4 = 0
  · rw [outs_A m c t h0]
  · rw [outs_B m c t h0]

end AnyF

/-! ## At the ideal values: blocks read off the arrays -/

variable (m : (ℓ : Loc nD τ sig) → Buf (Elt Ideal) ℓ) (ρ : Dev nD → PrngReg)

/-- Where each window's block sits at point t (decided over the 32 points). -/
theorem idx_facts : ∀ t : Fin cfg0.N, win0_0.index t (0 : Fin 3) = t.val / 4
    ∧ win0_0.index t (1 : Fin 3) = t.val % 4
    ∧ win0_0.index t (2 : Fin 3) = 0
    ∧ win0_1.index t (0 : Fin 3) = t.val / 4
    ∧ win0_1.index t (1 : Fin 3) = 0
    ∧ win0_1.index t (2 : Fin 3) = 0
    ∧ win0_2.index t (0 : Fin 3) = t.val / 4
    ∧ win0_2.index t (1 : Fin 3) = 0
    ∧ win0_2.index t (2 : Fin 3) = 0
    ∧ win0_3.index t (0 : Fin 2) = 0
    ∧ win0_3.index t (1 : Fin 2) = 0
    ∧ win0_4.index t (0 : Fin 1) = 0
    ∧ win0_5.index t (0 : Fin 2) = 0
    ∧ win0_5.index t (1 : Fin 2) = 0
    ∧ win0_6.index t (0 : Fin 1) = 0
    ∧ win0_7.index t (0 : Fin 2) = 0
    ∧ win0_7.index t (1 : Fin 2) = 0
    ∧ win0_8.index t (0 : Fin 1) = 0
    ∧ win0_9.index t (0 : Fin 3) = t.val / 4
    ∧ win0_9.index t (1 : Fin 3) = t.val % 4
    ∧ win0_9.index t (2 : Fin 3) = 0 :=
  (by decide +kernel : ∀ t : Fin grid0.N, _)

theorem hN : cfg0.N = 32 := N_0

/-- The batch element of point t. -/
def bat (t : Fin cfg0.N) : Fin 8 := ⟨t.val / 4, by have := t.isLt; have := hN; omega⟩

/-- The query row, in the whole array, of row r of point t's query block. -/
def qrow (t : Fin cfg0.N) (r : Fin 512) : Fin 2048 := ⟨512 * (t.val % 4) + r.val, by have := r.isLt; omega⟩

theorem iblk0_apply (c : Dev nD) (t : Fin cfg0.N) (u : Fin 1) (r : Fin 512) (d : Fin 768) :
    (iblk m c 0 t : Vec Ideal S1x512x768 .f32) (ix3 u r d) = m ((c : Thread nD τ).loc main_arg0) (ix3 (bat t) (qrow t r) d) := by
  obtain ⟨e0, e1, e2, e3, e4, e5, e6, e7, e8, e9, e10, e11, e12, e13, e14, e15, e16, e17, e18, e19, e20⟩ := idx_facts t
  unfold iblk
  rw [View.read_apply]
  show V m c main_arg0 _ = _
  refine congrArg (m ((c : Thread nD τ).loc main_arg0)) (funext fun a => Fin.ext ?_)
  have hu := u.isLt
  match a with
  | ⟨0, _⟩ => show win0_0.index t (0 : Fin 3) * 1 + 1 * u.val = t.val / 4; omega
  | ⟨1, _⟩ => show win0_0.index t (1 : Fin 3) * 512 + 1 * r.val = 512 * (t.val % 4) + r.val; omega
  | ⟨2, _⟩ => show win0_0.index t (2 : Fin 3) * 768 + 1 * d.val = d.val; omega

theorem iblk1_apply (c : Dev nD) (t : Fin cfg0.N) (u : Fin 1) (r : Fin 2048) (d : Fin 768) :
    (iblk m c 1 t : Vec Ideal S1x2048x768 .f32) (ix3 u r d) = m ((c : Thread nD τ).loc main_arg1) (ix3 (bat t) r d) := by
  obtain ⟨e0, e1, e2, e3, e4, e5, e6, e7, e8, e9, e10, e11, e12, e13, e14, e15, e16, e17, e18, e19, e20⟩ := idx_facts t
  unfold iblk
  rw [View.read_apply]
  show V m c main_arg1 _ = _
  refine congrArg (m ((c : Thread nD τ).loc main_arg1)) (funext fun a => Fin.ext ?_)
  have hu := u.isLt
  match a with
  | ⟨0, _⟩ => show win0_1.index t (0 : Fin 3) * 1 + 1 * u.val = t.val / 4; omega
  | ⟨1, _⟩ => show win0_1.index t (1 : Fin 3) * 2048 + 1 * r.val = r.val; omega
  | ⟨2, _⟩ => show win0_1.index t (2 : Fin 3) * 768 + 1 * d.val = d.val; omega

theorem iblk2_apply (c : Dev nD) (t : Fin cfg0.N) (u : Fin 1) (r : Fin 2048) (d : Fin 768) :
    (iblk m c 2 t : Vec Ideal S1x2048x768 .f32) (ix3 u r d) = m ((c : Thread nD τ).loc main_arg2) (ix3 (bat t) r d) := by
  obtain ⟨e0, e1, e2, e3, e4, e5, e6, e7, e8, e9, e10, e11, e12, e13, e14, e15, e16, e17, e18, e19, e20⟩ := idx_facts t
  unfold iblk
  rw [View.read_apply]
  show V m c main_arg2 _ = _
  refine congrArg (m ((c : Thread nD τ).loc main_arg2)) (funext fun a => Fin.ext ?_)
  have hu := u.isLt
  match a with
  | ⟨0, _⟩ => show win0_2.index t (0 : Fin 3) * 1 + 1 * u.val = t.val / 4; omega
  | ⟨1, _⟩ => show win0_2.index t (1 : Fin 3) * 2048 + 1 * r.val = r.val; omega
  | ⟨2, _⟩ => show win0_2.index t (2 : Fin 3) * 768 + 1 * d.val = d.val; omega

theorem iblk3_apply (c : Dev nD) (t : Fin cfg0.N) (d : Fin 768) (n : Fin 64) :
    (iblk m c 3 t : Vec Ideal S768x64 .f32) (ix2 d n) = m ((c : Thread nD τ).loc main_arg3) (ix2 d n) := by
  obtain ⟨e0, e1, e2, e3, e4, e5, e6, e7, e8, e9, e10, e11, e12, e13, e14, e15, e16, e17, e18, e19, e20⟩ := idx_facts t
  unfold iblk
  rw [View.read_apply]
  show V m c main_arg3 _ = _
  refine congrArg (m ((c : Thread nD τ).loc main_arg3)) (funext fun a => Fin.ext ?_)
  match a with
  | ⟨0, _⟩ => show win0_3.index t (0 : Fin 2) * 768 + 1 * d.val = d.val; omega
  | ⟨1, _⟩ => show win0_3.index t (1 : Fin 2) * 64 + 1 * n.val = n.val; omega

theorem iblk4_apply (c : Dev nD) (t : Fin cfg0.N) (n : Fin 64) :
    (iblk m c 4 t : Vec Ideal S64 .f32) (ix1 n) = m ((c : Thread nD τ).loc main_arg4) (ix1 n) := by
  obtain ⟨e0, e1, e2, e3, e4, e5, e6, e7, e8, e9, e10, e11, e12, e13, e14, e15, e16, e17, e18, e19, e20⟩ := idx_facts t
  unfold iblk
  rw [View.read_apply]
  show V m c main_arg4 _ = _
  refine congrArg (m ((c : Thread nD τ).loc main_arg4)) (funext fun a => Fin.ext ?_)
  match a with
  | ⟨0, _⟩ => show win0_4.index t (0 : Fin 1) * 64 + 1 * n.val = n.val; omega

theorem iblk5_apply (c : Dev nD) (t : Fin cfg0.N) (d : Fin 768) (n : Fin 64) :
    (iblk m c 5 t : Vec Ideal S768x64 .f32) (ix2 d n) = m ((c : Thread nD τ).loc main_arg5) (ix2 d n) := by
  obtain ⟨e0, e1, e2, e3, e4, e5, e6, e7, e8, e9, e10, e11, e12, e13, e14, e15, e16, e17, e18, e19, e20⟩ := idx_facts t
  unfold iblk
  rw [View.read_apply]
  show V m c main_arg5 _ = _
  refine congrArg (m ((c : Thread nD τ).loc main_arg5)) (funext fun a => Fin.ext ?_)
  match a with
  | ⟨0, _⟩ => show win0_5.index t (0 : Fin 2) * 768 + 1 * d.val = d.val; omega
  | ⟨1, _⟩ => show win0_5.index t (1 : Fin 2) * 64 + 1 * n.val = n.val; omega

theorem iblk6_apply (c : Dev nD) (t : Fin cfg0.N) (n : Fin 64) :
    (iblk m c 6 t : Vec Ideal S64 .f32) (ix1 n) = m ((c : Thread nD τ).loc main_arg6) (ix1 n) := by
  obtain ⟨e0, e1, e2, e3, e4, e5, e6, e7, e8, e9, e10, e11, e12, e13, e14, e15, e16, e17, e18, e19, e20⟩ := idx_facts t
  unfold iblk
  rw [View.read_apply]
  show V m c main_arg6 _ = _
  refine congrArg (m ((c : Thread nD τ).loc main_arg6)) (funext fun a => Fin.ext ?_)
  match a with
  | ⟨0, _⟩ => show win0_6.index t (0 : Fin 1) * 64 + 1 * n.val = n.val; omega

theorem iblk7_apply (c : Dev nD) (t : Fin cfg0.N) (d : Fin 768) (n : Fin 64) :
    (iblk m c 7 t : Vec Ideal S768x64 .f32) (ix2 d n) = m ((c : Thread nD τ).loc main_arg7) (ix2 d n) := by
  obtain ⟨e0, e1, e2, e3, e4, e5, e6, e7, e8, e9, e10, e11, e12, e13, e14, e15, e16, e17, e18, e19, e20⟩ := idx_facts t
  unfold iblk
  rw [View.read_apply]
  show V m c main_arg7 _ = _
  refine congrArg (m ((c : Thread nD τ).loc main_arg7)) (funext fun a => Fin.ext ?_)
  match a with
  | ⟨0, _⟩ => show win0_7.index t (0 : Fin 2) * 768 + 1 * d.val = d.val; omega
  | ⟨1, _⟩ => show win0_7.index t (1 : Fin 2) * 64 + 1 * n.val = n.val; omega

theorem iblk8_apply (c : Dev nD) (t : Fin cfg0.N) (n : Fin 64) :
    (iblk m c 8 t : Vec Ideal S64 .f32) (ix1 n) = m ((c : Thread nD τ).loc main_arg8) (ix1 n) := by
  obtain ⟨e0, e1, e2, e3, e4, e5, e6, e7, e8, e9, e10, e11, e12, e13, e14, e15, e16, e17, e18, e19, e20⟩ := idx_facts t
  unfold iblk
  rw [View.read_apply]
  show V m c main_arg8 _ = _
  refine congrArg (m ((c : Thread nD τ).loc main_arg8)) (funext fun a => Fin.ext ?_)
  match a with
  | ⟨0, _⟩ => show win0_8.index t (0 : Fin 1) * 64 + 1 * n.val = n.val; omega

/-! ## The scratch arrays after any point -/

/-- The key rows of batch element b, projected and made unit length: what the first scratch array holds. -/
abbrev keyUnit (c : Dev nD) (b : Fin 8) (s : Fin 2048) (j : Fin 64) : EReal :=
  unit (dense (fun d => (m ((c : Thread nD τ).loc main_arg1)) (ix3 b s d)) (fun d n => (m ((c : Thread nD τ).loc main_arg5)) (ix2 d n)) (fun n => (m ((c : Thread nD τ).loc main_arg6)) (ix1 n))) j

/-- The value rows of batch element b, projected: what the second scratch array holds. -/
abbrev valProj (c : Dev nD) (b : Fin 8) (s : Fin 2048) (j : Fin 64) : EReal :=
  dense (fun d => (m ((c : Thread nD τ).loc main_arg2)) (ix3 b s d)) (fun d n => (m ((c : Thread nD τ).loc main_arg7)) (ix2 d n)) (fun n => (m ((c : Thread nD τ).loc main_arg8)) (ix1 n)) j

/-- A point with q = 0 leaves its own batch element's rows in the scratch arrays. -/
theorem scratch_A (c : Dev nD) (t : Fin cfg0.N) (h0 : t.val % 4 = 0) :
    (∀ (s : Fin 2048) (j : Fin 64), (outsAt0 m c t.val t.isLt).2.1 (ix2 s j) = keyUnit m c (bat t) s j)
    ∧ (∀ (s : Fin 2048) (j : Fin 64), (outsAt0 m c t.val t.isLt).2.2 (ix2 s j) = valProj m c (bat t) s j) := by
  rw [outs_A m c t h0]
  refine ⟨fun s j => ?_, fun s j => ?_⟩
  · show k0_pay2 (iblk m c 1 t) (iblk m c 5 t) (iblk m c 6 t) (ix2 s j) = _
    refine (pay2_apply _ _ _ s j).trans ?_
    simp only [iblk1_apply, iblk5_apply, iblk6_apply]
  · show k0_pay3 (iblk m c 2 t) (iblk m c 7 t) (iblk m c 8 t) (ix2 s j) = _
    refine (pay3_apply _ _ _ s j).trans ?_
    simp only [iblk2_apply, iblk7_apply, iblk8_apply]

/-- After ANY point the scratch arrays hold the rows of the point's batch element: a point with q ≠ 0 keeps what the
    point before left, and the point before has the same batch element. -/
theorem scratch_inv (c : Dev nD) : ∀ (n : ℕ) (h : n < cfg0.N),
    (∀ (s : Fin 2048) (j : Fin 64), (outsAt0 m c n h).2.1 (ix2 s j) = keyUnit m c (bat ⟨n, h⟩) s j)
    ∧ (∀ (s : Fin 2048) (j : Fin 64), (outsAt0 m c n h).2.2 (ix2 s j) = valProj m c (bat ⟨n, h⟩) s j)
  | 0, h => scratch_A m c ⟨0, h⟩ rfl
  | n + 1, h => by
    by_cases h0 : (n + 1) % 4 = 0
    · exact scratch_A m c ⟨n + 1, h⟩ h0
    · have ih := scratch_inv c n (Nat.lt_of_succ_lt h)
      have hb : bat ⟨n + 1, h⟩ = bat ⟨n, Nat.lt_of_succ_lt h⟩ := Fin.ext (by show (n + 1) / 4 = n / 4; omega)
      rw [outs_B m c ⟨n + 1, h⟩ h0, hb]
      exact ih

/-! ## What a point writes back -/

/-- The result array the kernel computes, as one function of its argument arrays. -/
abbrev result (c : Dev nD) : S8x2048x64.Idx → EReal := whole scaleMul (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- Row r of point t's output block is the head's output for query row 512·q + r of batch element b. -/
theorem out_at (c : Dev nD) (t : Fin cfg0.N) (u : Fin 1) (r : Fin 512) (j : Fin 64) :
    (outsAt0 m c t.val t.isLt).1 (ix3 u r j) = result m c (ix3 (bat t) (qrow t r) j) := by
  obtain ⟨h1, h2⟩ := scratch_inv m c t.val t.isLt
  rw [out_of_scratch m c t]
  refine (pay1_apply _ u r j).trans ((pay4_apply _ _ _ _ _ r j).trans ?_)
  simp only [h1, h2, iblk0_apply, iblk3_apply, iblk4_apply]
  rfl

/-- WHAT POINT t WRITES BACK is block t of the result function. -/
theorem flushed_eq (c : Dev nD) (t : Fin cfg0.N) :
    (dats m 0 c).flushed 9 t = ((cfg0.win 9).blk t).view.read (Elt Ideal) (result m c) := by
  obtain ⟨e0, e1, e2, e3, e4, e5, e6, e7, e8, e9, e10, e11, e12, e13, e14, e15, e16, e17, e18, e19, e20⟩ := idx_facts t
  rw [Cert.KernelIdeal.Value.flushed9]
  funext y
  show (outsAt0 m c t.val t.isLt).1 y = result m c (((cfg0.win 9).blk t).view.emb y)
  refine ((congrArg _ (eq_ix3 y)).trans (out_at m c t (y 0) (y 1) (y 2))).trans (congrArg (result m c) ?_)
  funext a; apply Fin.ext
  have h0 : (y 0).val < 1 := (y 0).isLt
  match a with
  | ⟨0, _⟩ => show t.val / 4 = win0_9.index t (0 : Fin 3) * 1 + 1 * (y 0).val; omega
  | ⟨1, _⟩ => show 512 * (t.val % 4) + (y 1).val = win0_9.index t (1 : Fin 3) * 512 + 1 * (y 1).val; omega
  | ⟨2, _⟩ => show (y 2).val = win0_9.index t (2 : Fin 3) * 64 + 1 * (y 2).val; omega

/-- An index of the result array is in point t's block iff each coordinate is in the block's range on its axis. -/
theorem mem_blk (t : Fin cfg0.N) (i : S8x2048x64.Idx) :
    i ∈ ((cfg0.win 9).blk t).view.set ↔ ∀ a : Fin 3, win0_9.index t a * S1x512x64.size a ≤ (i a).val ∧ (i a).val < win0_9.index t a * S1x512x64.size a + S1x512x64.size a := by
  show i ∈ ((View.whole main_v0).slice (win0_9.rect t)).set ↔ _
  rw [View.set_slice_whole, Rect.mem_set_unit]
  exact Iff.rfl

/-- Every index of the result array is in the block of the point 4·b + s / 512. -/
theorem cover (i : S8x2048x64.Idx) : ∃ t : Fin cfg0.N, (cfg0.win 9).flush t = true ∧ i ∈ ((cfg0.win 9).blk t).view.set := by
  have hi0 : (i 0).val < 8 := (i 0).isLt
  have hi1 : (i 1).val < 2048 := (i 1).isLt
  have hi2 : (i 2).val < 64 := (i 2).isLt
  let t : Fin cfg0.N := ⟨4 * (i 0).val + (i 1).val / 512, by have := hN; omega⟩
  have htv : t.val = 4 * (i 0).val + (i 1).val / 512 := rfl
  obtain ⟨e0, e1, e2, e3, e4, e5, e6, e7, e8, e9, e10, e11, e12, e13, e14, e15, e16, e17, e18, e19, e20⟩ := idx_facts t
  refine ⟨t, flush0_9 t, ?_⟩
  rw [mem_blk]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 512 ≤ (i 1).val ∧ (i 1).val < win0_9.index t (1 : Fin 3) * 512 + 512; omega
  | ⟨2, _⟩ => show win0_9.index t (2 : Fin 3) * 64 ≤ (i 2).val ∧ (i 2).val < win0_9.index t (2 : Fin 3) * 64 + 64; omega

/-- So the result array ends holding the result function. -/
theorem final (c : Dev nD) : (dats m 0 c).arrAt 9 cfg0.N = result m c :=
  (dats m 0 c).arrAt_eq_of_cover 9 (result m c) (fun t _ => flushed_eq m c t) cover

/-- The run, read: the result array at the result function, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Cert.KernelIdeal.Value.run_blocks m ρ)

end Cert.KernelIdeal.Whole

end
-- ==== Proof.LibHostRows.lean ====
/-
  The host's reduce with a maximum body along the LAST axis of a rank-3 array, read at an index, at the ideal values:
  at (p, q) it is the fold of `max`, from the initial value, over k of the entries (p, q, k).
-/
import Idealize.ShloMosaic.PureOps.Ideal.Laws
import Idealize.ShloMosaic.Lib.ValueIdx

noncomputable section

namespace Cert.LibHostRows

open Idealize.ShloMosaic Idealize.ShloMosaic.ValueIdx

/-- The reduced index (p, q) with the last coordinate k put back is (p, q, k). -/
theorem lift_last3 {a b c : ℕ} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-- The host's maximum along the last axis, at (p, q). -/
theorem hostMaxLast3 {a b c : ℕ} (x : FVec Ideal ⟨3, ![a, b, c]⟩ .f32) (init : FVec Ideal ⟨0, ![]⟩ .f32)
    (h' : (⟨3, ![a, b, c]⟩ : Shape).ReducesTo [2] (⟨2, ![a, b]⟩ : Shape))
    (h : (⟨3, ![a, b, c]⟩ : Shape).Reduces [2] (⟨2, ![a, b]⟩ : Shape)) (hu : 0 < (⟨0, ![]⟩ : Shape).numel) (p : Fin a) (q : Fin b) :
    Host.reduce FloatOps.maximumf x init h' hu (ix2 p q)
      = (Finset.univ : Finset (Fin c)).fold max (init (Shape.Idx.first hu)) (fun k => x (ix3 p q k)) := by
  rw [Host.reduce_eq_fold_single FloatOps.maximumf x _ h' h hu]
  have hf : (x ∘ h.lift (ix2 p q)) = fun k : Fin c => x (ix3 p q k) := funext fun k => congrArg x (lift_last3 h p q k)
  exact congrArg (fun f => Finset.fold max (init (Shape.Idx.first hu)) f (Finset.univ : Finset (Fin c))) hf

end Cert.LibHostRows

end
-- ==== Proof.RefValue.lean ====
/-
  The reference program at the ideal values, read at an index: its result array is the attention head's function of the
  argument arrays, with the scaling "divide by the square root of the float 64".

  Stage by stage, at explicit coordinates: the three projections are dense rows; the two normalisations divide a row by
  the square root of its sum of squares (the sum from an initial 0); the scores are the scaled inner products of unit rows
  of one batch element; the row maximum is a fold of max from −∞, taken against −∞ once more; the weights are the shifted
  exponentials over their sum (from an initial 0); the result mixes the projected value rows.
-/
import proofs.«131064_j4964982194379_2_alg».proof.Proof.Gen.ReferenceIdeal.Read
import proofs.«131064_j4964982194379_2_alg».proof.Proof.AttnWhole
import proofs.«131064_j4964982194379_2_alg».proof.Proof.LibHostRows

noncomputable section

namespace Cert.ReferenceIdeal.RefValue

open Cert.ReferenceIdeal Cert.ReferenceIdeal.Gen Cert.ReferenceIdeal.Read Idealize.ShloMosaic Idealize.ShloMosaic.ValueIdx Cert.AttnSpec

/-- The projected query row (b, s). -/
theorem q_at (x0 : (⟨S8x2048x768, .f32⟩ : BufTy).Contents (Elt Ideal)) (x3 : (⟨S768x64, .f32⟩ : BufTy).Contents (Elt Ideal)) (x4 : (⟨S64, .f32⟩ : BufTy).Contents (Elt Ideal)) (b : Fin 8) (s : Fin 2048) (j : Fin 64) :
    val_main_v3 (F := Ideal) x0 x3 x4 (ix3 b s j)
      = dense (fun d => x0 (ix3 b s d)) (fun d n => x3 (ix2 d n)) (fun n => x4 (ix1 n)) j := by
  have hl : ∀ k : Fin 768, lidx_main_v0 (ix3 b s j) k = ix3 b s k := fun k => funext fun a => Fin.ext (by match a with | ⟨0, _⟩ => rfl | ⟨1, _⟩ => rfl | ⟨2, _⟩ => rfl)
  have hr : ∀ k : Fin 768, ridx_main_v0 (ix3 b s j) k = ix2 k j := fun k => funext fun a => Fin.ext (by match a with | ⟨0, _⟩ => rfl | ⟨1, _⟩ => rfl)
  have hb : idx_main_v1 (idx_main_v2 (ix3 b s j)) = ix1 j := funext fun a => Fin.ext (by match a with | ⟨0, _⟩ => rfl)
  rw [val_main_v3_apply, val_main_v0_apply, val_main_v2_apply, val_main_v1_apply, hb]
  simp only [hl, hr]
  rfl

/-- The projected key row (b, s). -/
theorem k_at (x1 : (⟨S8x2048x768, .f32⟩ : BufTy).Contents (Elt Ideal)) (x5 : (⟨S768x64, .f32⟩ : BufTy).Contents (Elt Ideal)) (x6 : (⟨S64, .f32⟩ : BufTy).Contents (Elt Ideal)) (b : Fin 8) (s : Fin 2048) (j : Fin 64) :
    val_main_v7 (F := Ideal) x1 x5 x6 (ix3 b s j)
      = dense (fun d => x1 (ix3 b s d)) (fun d n => x5 (ix2 d n)) (fun n => x6 (ix1 n)) j := by
  have hl : ∀ k : Fin 768, lidx_main_v4 (ix3 b s j) k = ix3 b s k := fun k => funext fun a => Fin.ext (by match a with | ⟨0, _⟩ => rfl | ⟨1, _⟩ => rfl | ⟨2, _⟩ => rfl)
  have hr : ∀ k : Fin 768, ridx_main_v4 (ix3 b s j) k = ix2 k j := fun k => funext fun a => Fin.ext (by match a with | ⟨0, _⟩ => rfl | ⟨1, _⟩ => rfl)
  have hb : idx_main_v5 (idx_main_v6 (ix3 b s j)) = ix1 j := funext fun a => Fin.ext (by match a with | ⟨0, _⟩ => rfl)
  rw [val_main_v7_apply, val_main_v4_apply, val_main_v6_apply, val_main_v5_apply, hb]
  simp only [hl, hr]
  rfl

/-- The projected value row (b, s). -/
theorem v_at (x2 : (⟨S8x2048x768, .f32⟩ : BufTy).Contents (Elt Ideal)) (x7 : (⟨S768x64, .f32⟩ : BufTy).Contents (Elt Ideal)) (x8 : (⟨S64, .f32⟩ : BufTy).Contents (Elt Ideal)) (b : Fin 8) (s : Fin 2048) (j : Fin 64) :
    val_main_v11 (F := Ideal) x2 x7 x8 (ix3 b s j)
      = dense (fun d => x2 (ix3 b s d)) (fun d n => x7 (ix2 d n)) (fun n => x8 (ix1 n)) j := by
  have hl : ∀ k : Fin 768, lidx_main_v8 (ix3 b s j) k = ix3 b s k := fun k => funext fun a => Fin.ext (by match a with | ⟨0, _⟩ => rfl | ⟨1, _⟩ => rfl | ⟨2, _⟩ => rfl)
  have hr : ∀ k : Fin 768, ridx_main_v8 (ix3 b s j) k = ix2 k j := fun k => funext fun a => Fin.ext (by match a with | ⟨0, _⟩ => rfl | ⟨1, _⟩ => rfl)
  have hb : idx_main_v9 (idx_main_v10 (ix3 b s j)) = ix1 j := funext fun a => Fin.ext (by match a with | ⟨0, _⟩ => rfl)
  rw [val_main_v11_apply, val_main_v8_apply, val_main_v10_apply, val_main_v9_apply, hb]
  simp only [hl, hr]
  rfl

/-- The unit-length projected query row (b, s). -/
theorem qn_at (x0 : (⟨S8x2048x768, .f32⟩ : BufTy).Contents (Elt Ideal)) (x3 : (⟨S768x64, .f32⟩ : BufTy).Contents (Elt Ideal)) (x4 : (⟨S64, .f32⟩ : BufTy).Contents (Elt Ideal)) (b : Fin 8) (s : Fin 2048) (j : Fin 64) :
    val_main_v14 (F := Ideal) x0 x3 x4 (ix3 b s j)
      = unit (dense (fun d => x0 (ix3 b s d)) (fun d n => x3 (ix2 d n)) (fun n => x4 (ix1 n))) j := by
  have h1 : idx_main_call0_v2 (idx_main_v13 (ix3 b s j)) = ix2 b s := funext fun a => Fin.ext (by match a with | ⟨0, _⟩ => rfl | ⟨1, _⟩ => rfl)
  have h2 : ∀ k : Fin 64, idx_main_call0_v1 (ix2 b s) k = ix3 b s k := fun k => funext fun a => Fin.ext (by match a with | ⟨0, _⟩ => rfl | ⟨1, _⟩ => rfl | ⟨2, _⟩ => rfl)
  rw [val_main_v14_apply, val_main_v13_apply, val_main_v12_apply, val_main_call0_v2_apply, h1, val_main_call0_v1_apply,
    val_main_call0_cst_apply, q_at]
  simp only [h2, val_main_call0_v0_apply, q_at]
  show Ideal.div _ (Ideal.sqrt (Ideal.ofBits .f32 0x00000000#32 + _)) = _
  rw [Ideal.ofBits_zero_f32, zero_add]
  rfl

/-- The unit-length projected key row (b, s). -/
theorem kn_at (x1 : (⟨S8x2048x768, .f32⟩ : BufTy).Contents (Elt Ideal)) (x5 : (⟨S768x64, .f32⟩ : BufTy).Contents (Elt Ideal)) (x6 : (⟨S64, .f32⟩ : BufTy).Contents (Elt Ideal)) (b : Fin 8) (s : Fin 2048) (j : Fin 64) :
    val_main_v17 (F := Ideal) x1 x5 x6 (ix3 b s j)
      = unit (dense (fun d => x1 (ix3 b s d)) (fun d n => x5 (ix2 d n)) (fun n => x6 (ix1 n))) j := by
  have h1 : idx_main_call1_v2 (idx_main_v16 (ix3 b s j)) = ix2 b s := funext fun a => Fin.ext (by match a with | ⟨0, _⟩ => rfl | ⟨1, _⟩ => rfl)
  have h2 : ∀ k : Fin 64, idx_main_call1_v1 (ix2 b s) k = ix3 b s k := fun k => funext fun a => Fin.ext (by match a with | ⟨0, _⟩ => rfl | ⟨1, _⟩ => rfl | ⟨2, _⟩ => rfl)
  rw [val_main_v17_apply, val_main_v16_apply, val_main_v15_apply, val_main_call1_v2_apply, h1, val_main_call1_v1_apply,
    val_main_call1_cst_apply, k_at]
  simp only [h2, val_main_call1_v0_apply, k_at]
  show Ideal.div _ (Ideal.sqrt (Ideal.ofBits .f32 0x00000000#32 + _)) = _
  rw [Ideal.ofBits_zero_f32, zero_add]
  rfl

/-- The score of query row (b, s) against key row (b, s'). -/
theorem score_at (x0 x1 : (⟨S8x2048x768, .f32⟩ : BufTy).Contents (Elt Ideal)) (x3 : (⟨S768x64, .f32⟩ : BufTy).Contents (Elt Ideal)) (x4 : (⟨S64, .f32⟩ : BufTy).Contents (Elt Ideal)) (x5 : (⟨S768x64, .f32⟩ : BufTy).Contents (Elt Ideal)) (x6 : (⟨S64, .f32⟩ : BufTy).Contents (Elt Ideal)) (b : Fin 8) (s s' : Fin 2048) :
    val_main_v21 (F := Ideal) x0 x1 x3 x4 x5 x6 (ix3 b s s')
      = scores scaleDiv (unit (dense (fun d => x0 (ix3 b s d)) (fun d n => x3 (ix2 d n)) (fun n => x4 (ix1 n))))
          (fun s'' => unit (dense (fun d => x1 (ix3 b s'' d)) (fun d n => x5 (ix2 d n)) (fun n => x6 (ix1 n)))) s' := by
  have hl : ∀ k : Fin 64, lidx_main_v19 (ix3 b s s') k = ix3 b s k := fun k => funext fun a => Fin.ext (by match a with | ⟨0, _⟩ => rfl | ⟨1, _⟩ => rfl | ⟨2, _⟩ => rfl)
  have hr : ∀ k : Fin 64, ridx_main_v19 (ix3 b s s') k = ix3 b s' k := fun k => funext fun a => Fin.ext (by match a with | ⟨0, _⟩ => rfl | ⟨1, _⟩ => rfl | ⟨2, _⟩ => rfl)
  rw [val_main_v21_apply, val_main_v19_apply, val_main_v20_apply, val_main_v18_apply, val_main_cst_apply]
  simp only [hl, hr, qn_at, kn_at]
  rfl

/-- The maximum of the scores of query row (b, s). -/
theorem max_at (x0 x1 : (⟨S8x2048x768, .f32⟩ : BufTy).Contents (Elt Ideal)) (x3 : (⟨S768x64, .f32⟩ : BufTy).Contents (Elt Ideal)) (x4 : (⟨S64, .f32⟩ : BufTy).Contents (Elt Ideal)) (x5 : (⟨S768x64, .f32⟩ : BufTy).Contents (Elt Ideal)) (x6 : (⟨S64, .f32⟩ : BufTy).Contents (Elt Ideal)) (b : Fin 8) (s : Fin 2048) :
    val_main_v24 (F := Ideal) x0 x1 x3 x4 x5 x6 (ix2 b s) = rowMax (fun s'' : Fin 2048 => val_main_v21 (F := Ideal) x0 x1 x3 x4 x5 x6 (ix3 b s s'')) := by
  rw [val_main_v24_apply, val_main_v23_apply, val_main_cst_1_apply]
  unfold val_main_v22
  rw [Cert.LibHostRows.hostMaxLast3 _ _ reducesTo_S8x2048x2048_S8x2048_d2 (by decide) h_S_ b s]
  rfl

/-- The shifted exponential of the score (b, s, s'). -/
theorem exp_at (x0 x1 : (⟨S8x2048x768, .f32⟩ : BufTy).Contents (Elt Ideal)) (x3 : (⟨S768x64, .f32⟩ : BufTy).Contents (Elt Ideal)) (x4 : (⟨S64, .f32⟩ : BufTy).Contents (Elt Ideal)) (x5 : (⟨S768x64, .f32⟩ : BufTy).Contents (Elt Ideal)) (x6 : (⟨S64, .f32⟩ : BufTy).Contents (Elt Ideal)) (b : Fin 8) (s s' : Fin 2048) :
    val_main_v28 (F := Ideal) x0 x1 x3 x4 x5 x6 (ix3 b s s')
      = Ideal.exp (val_main_v21 (F := Ideal) x0 x1 x3 x4 x5 x6 (ix3 b s s') - rowMax (fun s'' : Fin 2048 => val_main_v21 (F := Ideal) x0 x1 x3 x4 x5 x6 (ix3 b s s''))) := by
  have h1 : idx_main_v25 (idx_main_v26 (ix3 b s s')) = ix2 b s := funext fun a => Fin.ext (by match a with | ⟨0, _⟩ => rfl | ⟨1, _⟩ => rfl)
  rw [val_main_v28_apply, val_main_v27_apply, val_main_v26_apply, val_main_v25_apply, h1, max_at]
  rfl

/-- The softmax weight (b, s, s'). -/
theorem soft_at (x0 x1 : (⟨S8x2048x768, .f32⟩ : BufTy).Contents (Elt Ideal)) (x3 : (⟨S768x64, .f32⟩ : BufTy).Contents (Elt Ideal)) (x4 : (⟨S64, .f32⟩ : BufTy).Contents (Elt Ideal)) (x5 : (⟨S768x64, .f32⟩ : BufTy).Contents (Elt Ideal)) (x6 : (⟨S64, .f32⟩ : BufTy).Contents (Elt Ideal)) (b : Fin 8) (s s' : Fin 2048) :
    val_main_v32 (F := Ideal) x0 x1 x3 x4 x5 x6 (ix3 b s s') = soft (fun s'' : Fin 2048 => val_main_v21 (F := Ideal) x0 x1 x3 x4 x5 x6 (ix3 b s s'')) s' := by
  have h1 : idx_main_v30 (idx_main_v31 (ix3 b s s')) = ix2 b s := funext fun a => Fin.ext (by match a with | ⟨0, _⟩ => rfl | ⟨1, _⟩ => rfl)
  have h2 : ∀ k : Fin 2048, idx_main_v29 (ix2 b s) k = ix3 b s k := fun k => funext fun a => Fin.ext (by match a with | ⟨0, _⟩ => rfl | ⟨1, _⟩ => rfl | ⟨2, _⟩ => rfl)
  rw [val_main_v32_apply, val_main_v31_apply, val_main_v30_apply, h1, val_main_v29_apply, val_main_cst_2_apply, exp_at]
  simp only [h2, exp_at]
  show Ideal.div _ (Ideal.ofBits .f32 0x00000000#32 + _) = _
  rw [Ideal.ofBits_zero_f32, zero_add]
  rfl

/-- THE REFERENCE'S RESULT is the attention head's function of the arguments, scaled by division. -/
theorem result_eq (x0 x1 x2 : (⟨S8x2048x768, .f32⟩ : BufTy).Contents (Elt Ideal)) (x3 : (⟨S768x64, .f32⟩ : BufTy).Contents (Elt Ideal)) (x4 : (⟨S64, .f32⟩ : BufTy).Contents (Elt Ideal)) (x5 : (⟨S768x64, .f32⟩ : BufTy).Contents (Elt Ideal)) (x6 : (⟨S64, .f32⟩ : BufTy).Contents (Elt Ideal)) (x7 : (⟨S768x64, .f32⟩ : BufTy).Contents (Elt Ideal)) (x8 : (⟨S64, .f32⟩ : BufTy).Contents (Elt Ideal)) :
    val_main_v33 (F := Ideal) x0 x1 x2 x3 x4 x5 x6 x7 x8 = whole scaleDiv x0 x1 x2 x3 x4 x5 x6 x7 x8 := by
  funext i
  obtain ⟨b, s, j, rfl⟩ : ∃ (b : Fin 8) (s : Fin 2048) (j : Fin 64), i = ix3 b s j := ⟨i 0, i 1, i 2, eq_ix3 i⟩
  have hl : ∀ k : Fin 2048, lidx_main_v33 (ix3 b s j) k = ix3 b s k := fun k => funext fun a => Fin.ext (by match a with | ⟨0, _⟩ => rfl | ⟨1, _⟩ => rfl | ⟨2, _⟩ => rfl)
  have hr : ∀ k : Fin 2048, ridx_main_v33 (ix3 b s j) k = ix3 b k j := fun k => funext fun a => Fin.ext (by match a with | ⟨0, _⟩ => rfl | ⟨1, _⟩ => rfl | ⟨2, _⟩ => rfl)
  rw [val_main_v33_apply]
  simp only [hl, hr, soft_at, score_at, v_at]
  rfl

end Cert.ReferenceIdeal.RefValue

end
-- ==== Proof.lean ====
/-
  The kernel computes cosine attention with learned projections in one fused pass; the reference computes it with plain
  array operations.  On the extended reals (every float operation exact, a change of float format the identity) both
  programs' result arrays are ONE function of the nine argument arrays (`Cert.AttnSpec.whole`): entry (b, s, j) is the
  softmax-weighted mix of the projected value rows of batch element b, the weights taken from the scaled inner products of
  the unit-length projected query row (b, s) with the unit-length projected key rows of b.

  * The kernel walks an 8 × 4 grid, one block of 512 query rows per point, and keeps the unit-length projected key rows and
    the projected value rows of the current batch element in two scratch arrays that it fills only at the first of a batch
    element's four points.  By induction over the points the scratch arrays hold, after ANY point, the rows of that
    point's batch element; so each point writes back its 512 rows of the function, and the 32 blocks tile the result
    (Proof/KernelValue.lean, over the stage readings of Proof/LibAttnStages.lean).
  * The reference's operations are read one at a time at an index (Proof/RefValue.lean).
  * The two differ in one place: the kernel multiplies the scores by the float 0.125, the reference divides them by the
    square root of the float 64.  √64 = 8, and dividing an extended real by 8 is multiplying it by 1/8, infinities
    included, so no finiteness of the inputs is used anywhere (Proof/AttnSpec.lean `scale_eq`).
  A tiling, a grouping of a sum, a matrix product into a zero accumulator against the host's product, and a lane reduction
  against the host's reduction are the same sums on the extended reals.
  The three frames are the generated ones (the reference's is its generated run with the result dropped); the ideal pass
  rewrote nothing, so `preserves` is `True`.
-/
import proofs.«131064_j4964982194379_2_alg».proof.Defs
import proofs.«131064_j4964982194379_2_alg».proof.Proof.Gen.Kernel
import proofs.«131064_j4964982194379_2_alg».proof.Proof.Gen.Kernel.Skeleton
import proofs.«131064_j4964982194379_2_alg».proof.Proof.Gen.Kernel.Launch
import proofs.«131064_j4964982194379_2_alg».proof.Proof.Gen.Kernel.Points
import proofs.«131064_j4964982194379_2_alg».proof.Proof.Gen.Kernel.Frame
import proofs.«131064_j4964982194379_2_alg».proof.Proof.Gen.KernelIdeal
import proofs.«131064_j4964982194379_2_alg».proof.Proof.Gen.KernelIdeal.Skeleton
import proofs.«131064_j4964982194379_2_alg».proof.Proof.Gen.KernelIdeal.Launch
import proofs.«131064_j4964982194379_2_alg».proof.Proof.Gen.KernelIdeal.Points
import proofs.«131064_j4964982194379_2_alg».proof.Proof.Gen.KernelIdeal.Frame
import proofs.«131064_j4964982194379_2_alg».proof.Proof.Gen.ReferenceIdeal
import proofs.«131064_j4964982194379_2_alg».proof.Proof.Gen.Pre_finite_inputs
import proofs.«131064_j4964982194379_2_alg».proof.Proof.Gen.KernelIdeal.Value
import proofs.«131064_j4964982194379_2_alg».proof.Proof.Gen.ReferenceIdeal.Run
import proofs.«131064_j4964982194379_2_alg».proof.Proof.Gen.ReferenceIdeal.Read
import proofs.«131064_j4964982194379_2_alg».proof.Proof.KernelValue
import proofs.«131064_j4964982194379_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments, the kernel's result array ends at the attention head's function of them with
    the scaling "times 0.125", the reference's at the same function with the scaling "divided by √64": one function. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v33_eq, Cert.ReferenceIdeal.RefValue.result_eq, Cert.AttnSpec.whole_scale,
    a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
